-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x128 : Shape := ⟨2, ![512, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S2x800000 : Shape := ⟨2, ![2, 800000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128 .f32) (main_arg5 : FVec F S128x64 .f32) (main_arg6 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x512 .f32) (main_arg1 : FVec F S512x128 .f32) (main_arg2 : FVec F S128 .f32) (main_arg3 : FVec F S128x128 .f32) (main_arg4 : FVec F S128 .f32) (main_arg5 : FVec F S128x64 .f32) (main_arg6 : FVec F S64 .f32) (main_arg7 : IVec S2x800000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S50000x512 : Shape := ⟨2, ![50000, 512]⟩
abbrev S512x128 : Shape := ⟨2, ![512, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S5000x512 : Shape := ⟨2, ![5000, 512]⟩
abbrev S5000x128 : Shape := ⟨2, ![5000, 128]⟩
abbrev S850000x128 : Shape := ⟨2, ![850000, 128]⟩
abbrev S1x128 : Shape := ⟨2, ![1, 128]⟩
abbrev S1x64 : Shape := ⟨2, ![1, 64]⟩
abbrev S50000x64 : Shape := ⟨2, ![50000, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 86
  | .vmem => 18
  | .smem => 0
  | _ => 0

abbrev bufTy : (tb : Table) → Fin (tcTables nBuf tb) → BufTy
  | .hbm, ⟨0, _⟩ => ⟨S50000x512, .f32⟩
  | .hbm, ⟨1, _⟩ => ⟨S512x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S2x800000, .i32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x128, .f32⟩
  | .hbm, ⟨76, _⟩ => ⟨S850000x1, .f32⟩
  | .hbm, ⟨77, _⟩ => ⟨S850000x128, .f32⟩
  | .hbm, ⟨78, _⟩ => ⟨S850000x128, .f32⟩
  | .hbm, ⟨79, _⟩ => ⟨S_, .f32⟩
  | .hbm, ⟨80, _⟩ => ⟨S50000x128, .f32⟩
  | .hbm, ⟨81, _⟩ => ⟨S850000x1, .i32⟩
  | .hbm, ⟨82, _⟩ => ⟨S50000x128, .f32⟩
  | .hbm, ⟨83, _⟩ => ⟨S1x128, .f32⟩
  | .hbm, ⟨84, _⟩ => ⟨S1x64, .f32⟩
  | .hbm, ⟨85, _⟩ => ⟨S50000x64, .f32⟩
  | .local _ .vmem, ⟨0, _⟩ => ⟨S5000x512, .f32⟩
  | .local _ .vmem, ⟨1, _⟩ => ⟨S5000x512, .f32⟩
  | .local _ .vmem, ⟨2, _⟩ => ⟨S512x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x512_S512x128_S5000x128_1_0_0_1_n_n_wf : DotDims.WF S5000x512 S512x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x512 : Shape := ⟨2, ![50000, 512]⟩
abbrev S512x128 : Shape := ⟨2, ![512, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x64 : Shape := ⟨2, ![50000, 64]⟩
abbrev S1x64 : Shape := ⟨2, ![1, 64]⟩
abbrev S50000x1 : Shape := ⟨2, ![50000, 1]⟩

abbrev nBuf : Space → Nat
  | .hbm => 113
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S512x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S2x800000, .i32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x128, .f32⟩
  | .hbm, ⟨81, _⟩ => ⟨S850000x1, .f32⟩
  | .hbm, ⟨82, _⟩ => ⟨S850000x128, .f32⟩
  | .hbm, ⟨83, _⟩ => ⟨S850000x128, .f32⟩
  | .hbm, ⟨84, _⟩ => ⟨S_, .f32⟩
  | .hbm, ⟨85, _⟩ => ⟨S50000x128, .f32⟩
  | .hbm, ⟨86, _⟩ => ⟨S850000x1, .i32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S_, .f32⟩
  | .hbm, ⟨92, _⟩ => ⟨S50000x128, .f32⟩
  | .hbm, ⟨93, _⟩ => ⟨S50000x128, .f32⟩
  | .hbm, ⟨94, _⟩ => ⟨S50000x64, .f32⟩
  | .hbm, ⟨95, _⟩ => ⟨S1x64, .f32⟩
  | .hbm, ⟨96, _⟩ => ⟨S50000x64, .f32⟩
  | .hbm, ⟨97, _⟩ => ⟨S50000x64, .f32⟩
  | .hbm, ⟨98, _⟩ => ⟨S_, .f32⟩
  | .hbm, ⟨99, _⟩ => ⟨S50000, .f32⟩
  | .hbm, ⟨100, _⟩ => ⟨S_, .f32⟩
  | .hbm, ⟨101, _⟩ => ⟨S50000, .f32⟩
  | .hbm, ⟨102, _⟩ => ⟨S50000, .f32⟩
  | .hbm, ⟨103, _⟩ => ⟨S50000x1, .f32⟩
  | .hbm, ⟨104, _⟩ => ⟨S50000x64, .f32⟩
  | .hbm, ⟨105, _⟩ => ⟨S50000x64, .f32⟩
  | .hbm, ⟨106, _⟩ => ⟨S50000x64, .f32⟩
  | .hbm, ⟨107, _⟩ => ⟨S_, .f32⟩
  | .hbm, ⟨108, _⟩ => ⟨S50000, .f32⟩
  | .hbm, ⟨109, _⟩ => ⟨S50000x1, .f32⟩
  | .hbm, ⟨110, _⟩ => ⟨S50000x1, .f32⟩
  | .hbm, ⟨111, _⟩ => ⟨S50000x64, .f32⟩
  | .hbm, ⟨112, _⟩ => ⟨S50000x64, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_call3_cst : Ref sig .tc := ⟨.hbm, 98, rfl⟩
abbrev main_call3_v0 : Ref sig .tc := ⟨.hbm, 99, rfl⟩
abbrev main_call3_cst_0 : Ref sig .tc := ⟨.hbm, 100, rfl⟩
abbrev main_call3_v1 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_call3_v5 : Ref sig .tc := ⟨.hbm, 105, rfl⟩
abbrev main_call3_v6 : Ref sig .tc := ⟨.hbm, 106, rfl⟩
abbrev main_call3_cst_1 : Ref sig .tc := ⟨.hbm, 107, rfl⟩
abbrev main_call3_v7 : Ref sig .tc := ⟨.hbm, 108, rfl⟩
abbrev main_call3_v8 : Ref sig .tc := ⟨.hbm, 109, rfl⟩
abbrev main_call3_v9 : Ref sig .tc := ⟨.hbm, 110, rfl⟩
abbrev main_call3_v10 : Ref sig .tc := ⟨.hbm, 111, rfl⟩
abbrev main_v70 : Ref sig .tc := ⟨.hbm, 112, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x512_S512x128_S50000x128_1_0_0_1_n_n_wf : DotDims.WF S50000x512 S512x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The run of the three-stage program with its RESULT kept.

  The program is a chain of segments: three stretches of host operations, the first product's region, a stretch, the
  hidden layer's region, a stretch, the head's region. Each segment takes the core's buffers from one boundary's
  contents to the next (`Gen.W0` … `Gen.W8`), so every weakly fair execution terminates, without a fault, with every
  unscoped buffer at the last boundary's contents `Gen.W8`. Read at the eight argument buffers that is the frame claim;
  read at the result buffer as well, it says what the program returns: the head region's output array as its write-backs
  leave it.
-/
import proofs.«146125_j996432412810_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last boundary's
    contents and the eight arguments as launched. -/
theorem run_result : θ_run defs (onTc (τ := τ) (main (F := F))) ⟨m, fun _ => 0, ρ⟩ (fun r => ∀ c : Dev nD,
      r.2.mem ((c.tc : Thread nD τ).loc main_v61) = W8 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v61 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

/-- The result buffer is the head region's output window: at the last boundary it holds that array as the region's
    write-backs leave it. -/
theorem W8_result (c : Dev nD) :
    W8 m ρ c (Proc.devRef .tc main_v61) = (dat2 (V7 m ρ) c).arrAt 4 cfg2.N := W8_arr m ρ c 4

end Cert.KernelIdeal.Result

end
-- ==== Proof.LibTypedRef.lean ====
/-
  Typed references: a value stored through a typed reference and read back through the same reference.

  A module-local function's body is printed over typed references: each carries a buffer and the proof that the buffer's
  type is the value's, and contents pass to and from the buffer by transport along that proof. Read at once, a line of such
  operations leaves a transport pair around every intermediate value. The pair cancels, for any signature and any values.
-/
import Idealize.ShloMosaic.Lib.StableHlo

noncomputable section

namespace Cert.TypedRef

open Idealize.ShloMosaic Idealize.ShloMosaic.StableHlo

/-- A value written to a typed reference's buffer and read back through the same reference is the value. -/
theorem ofBuf_toBuf {sig : RefSig} {Val : EltTy → Type} {T : BufTy} (x : TRef sig T) (v : T.Contents Val) :
    x.ofBuf (x.toBuf v) = v := by
  obtain ⟨r, h, _, _⟩ := x
  subst h
  rfl

end Cert.TypedRef

end
-- ==== Proof.KernelBetween.lean ====
/-
  What the three regions find in their arrays: each input array of a region traced back through the host stretches.

  Between the regions the host gathers the previous region's rows along the edges' sources, scales each gathered row by its
  edge's weight and adds it into the row of the edge's target (`aggregate`): one function of the previous result, of the
  source and target index vectors and of the weight vector, the same before the second and before the third region. It is
  named here and never opened. Everything else a region reads is an argument of the program, or a bias argument recast as
  a one-row matrix. No stretch and no region writes the index vectors, the weights or an argument after they are made, so
  each is read back unchanged from the contents at the first region's entry. There the three edge vectors are: the
  sources and the targets, each a row of the edge list with one self-loop per node appended (`srcOf`, `dstOf`), and the
  weights `deg(src)^(-1/2) · deg(dst)^(-1/2)` with the degree counted over the targets and `0` for a node of degree zero
  (`weightOf`).
-/
import proofs.«146125_j996432412810_1_alg».proof.Proof.Gen.KernelIdeal.Frame
import proofs.«146125_j996432412810_1_alg».proof.Proof.LibTypedRef
import Idealize.ShloMosaic.Lib.StableHlo.Run

set_option maxRecDepth 16384

noncomputable section

namespace Cert.KernelIdeal.Between

open Cert.KernelIdeal Cert.KernelIdeal.Gen Idealize.ShloMosaic Idealize.ShloMosaic.TcCoe Idealize.SL.Sem
open Idealize.ShloMosaic.StableHlo

variable {F : FTy → Type} [FloatOps F]

/-- The aggregation over the graph's edges: gather the rows of `h` at the edges' sources `s` (a negative index wrapped by
    the number of nodes first), scale row `e` by the weight `w e`, and add it into row `d e` of a zero matrix. -/
def aggregate (h : (⟨S50000x128, .f32⟩ : BufTy).Contents (Elt F)) (s d : (⟨S850000, .i32⟩ : BufTy).Contents (Elt F))
    (w : (⟨S850000, .f32⟩ : BufTy).Contents (Elt F)) : (⟨S50000x128, .f32⟩ : BufTy).Contents (Elt F) :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 d)
    (mulf
      (Host.gather gather_S50000x128_S850000x1_S850000x128_1_0_n_n_0_1_1128 h
        (broadcastInDim S850000x1 ![0] bcast_S850000_S850000x1_0
          (select (cmpi .slt s (broadcastInDim S850000 ![] bcast_S_S850000 (constantI S_ 32 0#32)))
            (addi s (broadcastInDim S850000 ![] bcast_S_S850000 (constantI S_ 32 50000#32))) s)))
      (broadcastInDim S850000x128 ![0, 1] bcast_S850000x1_S850000x128_0_1
        (broadcastInDim S850000x1 ![0] bcast_S850000_S850000x1_0 w)))

/-- The edges' sources: row 0 of the edge list, then one self-loop per node. -/
def srcOf (e : (⟨S2x800000, .i32⟩ : BufTy).Contents (Elt F)) : (⟨S850000, .i32⟩ : BufTy).Contents (Elt F) :=
  concatenate S850000 0
    [⟨S800000, shapeCast _ (extractStridedSlice S1x800000 ![0, 0] e slices_S2x800000_S1x800000_0_0) shapeCasts_S1x800000_S800000⟩,
     ⟨S50000, iotaInDim S50000 32 0⟩] concatenates_S800000_S50000_S850000_d0

/-- The edges' targets: row 1 of the edge list, then one self-loop per node. -/
def dstOf (e : (⟨S2x800000, .i32⟩ : BufTy).Contents (Elt F)) : (⟨S850000, .i32⟩ : BufTy).Contents (Elt F) :=
  concatenate S850000 0
    [⟨S800000, shapeCast _ (extractStridedSlice S1x800000 ![1, 0] e slices_S2x800000_S1x800000_1_0) shapeCasts_S1x800000_S800000⟩,
     ⟨S50000, iotaInDim S50000 32 0⟩] concatenates_S800000_S50000_S850000_d0

/-- The nodes' degrees: a one added at each edge's target. -/
def degOf (d : (⟨S850000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32))
    (broadcastInDim S850000x1 ![0] bcast_S850000_S850000x1_0 d)
    (broadcastInDim S850000 ![] bcast_S_S850000 (constant S_ .f32 0x3F800000#32))

/-- `deg^(-1/2)` where the degree is positive, `0` elsewhere. -/
def invSqrtDegOf (d : (⟨S850000, .i32⟩ : BufTy).Contents (Elt F)) : (⟨S50000, .f32⟩ : BufTy).Contents (Elt F) :=
  select (cmpf (F := F) .ogt (degOf d) (broadcastInDim S50000 ![] bcast_S_S50000 (constant S_ .f32 0x00000000#32)))
    (Host.rsqrt (degOf d))
    (broadcastInDim S50000 ![] bcast_S_S50000 (id (constant S_ .f32 0x00000000#32)))

/-- A node vector gathered at an index vector, a negative index wrapped by the number of nodes first. -/
def gatherAt (v : (⟨S50000, .f32⟩ : BufTy).Contents (Elt F)) (ix : (⟨S850000, .i32⟩ : BufTy).Contents (Elt F)) :
    (⟨S850000, .f32⟩ : BufTy).Contents (Elt F) :=
  Host.gather gather_S50000_S850000x1_S850000_n_0_n_n_0_1_1 v
    (broadcastInDim S850000x1 ![0] bcast_S850000_S850000x1_0
      (select (cmpi .slt ix (broadcastInDim S850000 ![] bcast_S_S850000 (constantI S_ 32 0#32)))
        (addi ix (broadcastInDim S850000 ![] bcast_S_S850000 (constantI S_ 32 50000#32))) ix))

/-- The edges' weights: `deg(src)^(-1/2) · deg(dst)^(-1/2)`. -/
def weightOf (s d : (⟨S850000, .i32⟩ : BufTy).Contents (Elt F)) : (⟨S850000, .f32⟩ : BufTy).Contents (Elt F) :=
  mulf (gatherAt (invSqrtDegOf d) s) (gatherAt (invSqrtDegOf d) d)

variable (m : (ℓ : Loc nD τ sig) → Buf (Elt F) ℓ) (ρ : Dev nD → PrngReg)

/-! ## The edge vectors at the first region's entry -/

set_option maxHeartbeats 4000000 in
theorem src_entry (c : Dev nD) : W3 m ρ c (Proc.devRef .tc main_v3) = srcOf (m ((c : Thread nD τ).loc main_arg7)) := by
  show StableHlo.after hostOps0_2 (StableHlo.after hostOps0_1 (StableHlo.after hostOps0 (W0 m ρ c))) _ = _
  dsimp only [hostOps0_2, hostOps0_1, hostOps0]
  after_results_simp
  rfl

set_option maxHeartbeats 4000000 in
theorem dst_entry (c : Dev nD) : W3 m ρ c (Proc.devRef .tc main_v6) = dstOf (m ((c : Thread nD τ).loc main_arg7)) := by
  show StableHlo.after hostOps0_2 (StableHlo.after hostOps0_1 (StableHlo.after hostOps0 (W0 m ρ c))) _ = _
  dsimp only [hostOps0_2, hostOps0_1, hostOps0]
  after_results_simp
  rfl

set_option maxHeartbeats 8000000 in
theorem wgt_entry (c : Dev nD) : W3 m ρ c (Proc.devRef .tc main_v29)
    = weightOf (srcOf (m ((c : Thread nD τ).loc main_arg7))) (dstOf (m ((c : Thread nD τ).loc main_arg7))) := by
  show StableHlo.after hostOps0_2 (StableHlo.after hostOps0_1 (StableHlo.after hostOps0 (W0 m ρ c))) _ = _
  dsimp only [hostOps0_2, hostOps0_1, hostOps0]
  after_results_simp
  simp only [Cert.TypedRef.ofBuf_toBuf]
  rfl

/-! ## The second region's arrays -/

set_option maxHeartbeats 4000000 in
/-- The second region's node array: the aggregation of the first region's result. -/
theorem agg1_eq (c : Dev nD) :
    W5 m ρ c (Proc.devRef .tc main_v43) = aggregate (W4 m ρ c (Proc.devRef .tc main_v30))
      (W4 m ρ c (Proc.devRef .tc main_v3)) (W4 m ρ c (Proc.devRef .tc main_v6)) (W4 m ρ c (Proc.devRef .tc main_v29)) := by
  show StableHlo.after hostOps1 (W4 m ρ c) (Proc.devRef .tc main_v43) = _
  dsimp only [hostOps1]
  after_results_simp
  rfl

/-- Its bias array: the first bias recast as one row. -/
theorem bias1_eq (c : Dev nD) :
    W5 m ρ c (Proc.devRef .tc main_v44) = shapeCast _ (W4 m ρ c (Proc.devRef .tc main_arg2)) shapeCasts_S128_S1x128 := by
  show StableHlo.after hostOps1 (W4 m ρ c) (Proc.devRef .tc main_v44) = _
  dsimp only [hostOps1]
  after_results
  rfl

/-- The stretch before the second region leaves these buffers as they were. -/
theorem keep1 (c : Dev nD) :
    W5 m ρ c (Proc.devRef .tc main_arg3) = W4 m ρ c (Proc.devRef .tc main_arg3)
    ∧ W5 m ρ c (Proc.devRef .tc main_v3) = W4 m ρ c (Proc.devRef .tc main_v3)
    ∧ W5 m ρ c (Proc.devRef .tc main_v6) = W4 m ρ c (Proc.devRef .tc main_v6)
    ∧ W5 m ρ c (Proc.devRef .tc main_v29) = W4 m ρ c (Proc.devRef .tc main_v29)
    ∧ W5 m ρ c (Proc.devRef .tc main_arg4) = W4 m ρ c (Proc.devRef .tc main_arg4)
    ∧ W5 m ρ c (Proc.devRef .tc main_arg5) = W4 m ρ c (Proc.devRef .tc main_arg5)
    ∧ W5 m ρ c (Proc.devRef .tc main_arg6) = W4 m ρ c (Proc.devRef .tc main_arg6) := by
  refine ⟨?_, ?_, ?_, ?_, ?_, ?_, ?_⟩ <;>
  · show StableHlo.after hostOps1 (W4 m ρ c) _ = _
    dsimp only [hostOps1]
    after_results

/-! ## The third region's arrays -/

set_option maxHeartbeats 4000000 in
/-- The third region's node array: the aggregation of the second region's result. -/
theorem agg2_eq (c : Dev nD) :
    W7 m ρ c (Proc.devRef .tc main_v58) = aggregate (W6 m ρ c (Proc.devRef .tc main_v45))
      (W6 m ρ c (Proc.devRef .tc main_v3)) (W6 m ρ c (Proc.devRef .tc main_v6)) (W6 m ρ c (Proc.devRef .tc main_v29)) := by
  show StableHlo.after hostOps2 (W6 m ρ c) (Proc.devRef .tc main_v58) = _
  dsimp only [hostOps2]
  after_results_simp
  rfl

/-- Its two bias arrays: the second bias and the class bias, each recast as one row. -/
theorem bias2_eq (c : Dev nD) :
    W7 m ρ c (Proc.devRef .tc main_v59) = shapeCast _ (W6 m ρ c (Proc.devRef .tc main_arg4)) shapeCasts_S128_S1x128
    ∧ W7 m ρ c (Proc.devRef .tc main_v60) = shapeCast _ (W6 m ρ c (Proc.devRef .tc main_arg6)) shapeCasts_S64_S1x64 := by
  refine ⟨?_, ?_⟩ <;>
  · show StableHlo.after hostOps2 (W6 m ρ c) _ = _
    dsimp only [hostOps2]
    after_results
    rfl

/-- The stretch before the third region leaves the head's weights as they were. -/
theorem keep2 (c : Dev nD) : W7 m ρ c (Proc.devRef .tc main_arg5) = W6 m ρ c (Proc.devRef .tc main_arg5) := by
  show StableHlo.after hostOps2 (W6 m ρ c) _ = _
  dsimp only [hostOps2]
  after_results

/-! ## Across the regions -/

/-- The first region writes none of these buffers. -/
theorem across0 (c : Dev nD) :
    W4 m ρ c (Proc.devRef .tc main_arg2) = W3 m ρ c (Proc.devRef .tc main_arg2)
    ∧ W4 m ρ c (Proc.devRef .tc main_arg3) = W3 m ρ c (Proc.devRef .tc main_arg3)
    ∧ W4 m ρ c (Proc.devRef .tc main_v3) = W3 m ρ c (Proc.devRef .tc main_v3)
    ∧ W4 m ρ c (Proc.devRef .tc main_v6) = W3 m ρ c (Proc.devRef .tc main_v6)
    ∧ W4 m ρ c (Proc.devRef .tc main_v29) = W3 m ρ c (Proc.devRef .tc main_v29)
    ∧ W4 m ρ c (Proc.devRef .tc main_arg4) = W3 m ρ c (Proc.devRef .tc main_arg4)
    ∧ W4 m ρ c (Proc.devRef .tc main_arg5) = W3 m ρ c (Proc.devRef .tc main_arg5)
    ∧ W4 m ρ c (Proc.devRef .tc main_arg6) = W3 m ρ c (Proc.devRef .tc main_arg6) :=
  ⟨W4_of_ne m ρ c main_arg2 (by decide), W4_of_ne m ρ c main_arg3 (by decide), W4_of_ne m ρ c main_v3 (by decide),
   W4_of_ne m ρ c main_v6 (by decide), W4_of_ne m ρ c main_v29 (by decide), W4_of_ne m ρ c main_arg4 (by decide),
   W4_of_ne m ρ c main_arg5 (by decide), W4_of_ne m ρ c main_arg6 (by decide)⟩

/-- The second region writes none of these buffers. -/
theorem across1 (c : Dev nD) :
    W6 m ρ c (Proc.devRef .tc main_v3) = W5 m ρ c (Proc.devRef .tc main_v3)
    ∧ W6 m ρ c (Proc.devRef .tc main_v6) = W5 m ρ c (Proc.devRef .tc main_v6)
    ∧ W6 m ρ c (Proc.devRef .tc main_v29) = W5 m ρ c (Proc.devRef .tc main_v29)
    ∧ W6 m ρ c (Proc.devRef .tc main_arg4) = W5 m ρ c (Proc.devRef .tc main_arg4)
    ∧ W6 m ρ c (Proc.devRef .tc main_arg5) = W5 m ρ c (Proc.devRef .tc main_arg5)
    ∧ W6 m ρ c (Proc.devRef .tc main_arg6) = W5 m ρ c (Proc.devRef .tc main_arg6) :=
  ⟨W6_of_ne m ρ c main_v3 (by decide), W6_of_ne m ρ c main_v6 (by decide), W6_of_ne m ρ c main_v29 (by decide),
   W6_of_ne m ρ c main_arg4 (by decide), W6_of_ne m ρ c main_arg5 (by decide), W6_of_ne m ρ c main_arg6 (by decide)⟩

/-! ## The arguments at the first region's entry -/

set_option maxHeartbeats 4000000 in
/-- No stretch before the first region writes an argument. -/
theorem args_entry (c : Dev nD) :
    W3 m ρ c (Proc.devRef .tc main_arg0) = m ((c : Thread nD τ).loc main_arg0)
    ∧ W3 m ρ c (Proc.devRef .tc main_arg1) = m ((c : Thread nD τ).loc main_arg1)
    ∧ W3 m ρ c (Proc.devRef .tc main_arg2) = m ((c : Thread nD τ).loc main_arg2)
    ∧ W3 m ρ c (Proc.devRef .tc main_arg3) = m ((c : Thread nD τ).loc main_arg3)
    ∧ W3 m ρ c (Proc.devRef .tc main_arg4) = m ((c : Thread nD τ).loc main_arg4)
    ∧ W3 m ρ c (Proc.devRef .tc main_arg5) = m ((c : Thread nD τ).loc main_arg5)
    ∧ W3 m ρ c (Proc.devRef .tc main_arg6) = m ((c : Thread nD τ).loc main_arg6) := by
  refine ⟨?_, ?_, ?_, ?_, ?_, ?_, ?_⟩ <;>
  · show StableHlo.after hostOps0_2 (StableHlo.after hostOps0_1 (StableHlo.after hostOps0 (W0 m ρ c))) _ = _
    dsimp only [hostOps0_2, hostOps0_1, hostOps0]
    after_results_simp
    try rfl

end Cert.KernelIdeal.Between

end
-- ==== Proof.Spec.lean ====
/-
  A two-layer graph convolution with a log-softmax head, read ONE NODE AT A TIME on the extended reals.

  Every dense stage of the network acts on a node's row alone: the first feature transform sends the row `x` of a node to
  `x · W`; a hidden layer sends an aggregated row `a` to `max (a + b) 0 · W` (bias, rectifier, product); the head sends
  an aggregated row to `log_softmax (max (a + b) 0 · W + c)`, written, as both programs write it, with the row's
  maximum `μ` taken out first: `(ℓ - μ) - log (∑ exp (ℓ - μ))`. The aggregation over the graph's edges between the
  stages mixes rows, but it is the same host computation in both programs and is never opened here.

  A row is a function `Fin n → EReal`; a weight matrix is indexed by `ValueIdx.ix2`. The float literals stay bit
  patterns (`zeroF`, `negInfF`): the same pattern stands on both sides of every equation, so none is evaluated, except
  the zero a sum starts from.
-/
import Idealize.ShloMosaic.PureOps.Ideal
import Idealize.ShloMosaic.PureOps.Ideal.Laws
import Idealize.ShloMosaic.Lib.ValueIdx
import Idealize.ShloMosaic.Lib.ValueLayout

noncomputable section

namespace Cert.Gcn

open Idealize.ShloMosaic Idealize.ShloMosaic.ValueIdx

/-- An `R × n` matrix of extended reals. -/
abbrev Mat (R n : Nat) := (⟨2, ![R, n]⟩ : Shape).Idx → EReal

/-- Row `r` of a matrix. -/
def rowOf {R n : Nat} (A : Mat R n) (r : Fin R) : Fin n → EReal := fun c => A (ix2 r c)

/-- The one row of a `1 × n` matrix (a bias kept as a row). -/
def theRow {n : Nat} (b : Mat 1 n) : Fin n → EReal := fun c => b (ix2 (0 : Fin 1) c)

/-- A row times a matrix, at column `q`. -/
def rowDot {n k : Nat} (row : Fin n → EReal) (B : Mat n k) (q : Fin k) : EReal := ∑ c : Fin n, row c * B (ix2 c q)

/-- The f32 pattern of `0.0`, unevaluated. -/
def zeroF : EReal := Ideal.ofBits .f32 0x00000000#32
/-- The f32 pattern of `-∞`, unevaluated. -/
def negInfF : EReal := Ideal.ofBits .f32 0xFF800000#32

/-- Bias, then rectifier, of an aggregated row. -/
def hiddenRow {n : Nat} (a b : Fin n → EReal) : Fin n → EReal := fun c => max (a c + b c) zeroF

/-- A hidden layer on one node: `max (a + b) 0 · W`. -/
def layerRow {n k : Nat} (a b : Fin n → EReal) (W : Mat n k) : Fin k → EReal := fun q => rowDot (hiddenRow a b) W q

/-- The head's logits on one node: `max (a + b) 0 · W + c`. -/
def logitsRow {n k : Nat} (a b : Fin n → EReal) (W : Mat n k) (c : Fin k → EReal) : Fin k → EReal :=
  fun q => layerRow a b W q + c q

/-- A row's maximum, folded from `-∞`. -/
def rowMax {k : Nat} (l : Fin k → EReal) : EReal := (Finset.univ : Finset (Fin k)).fold max negInfF l

/-- The log-softmax of a row with its maximum taken out first. -/
def logSoftmaxRow {k : Nat} (l : Fin k → EReal) : Fin k → EReal :=
  fun q => (l q - rowMax l) - Ideal.log (∑ j : Fin k, Ideal.exp (l j - rowMax l))

/-- The head on one node. -/
def headRow {n k : Nat} (a b : Fin n → EReal) (W : Mat n k) (c : Fin k → EReal) : Fin k → EReal :=
  logSoftmaxRow (logitsRow a b W c)

/-! ## The stages on whole arrays: every row by its row function -/

/-- The first feature transform of every node: `X · W`. -/
def productRows {R n k : Nat} (X : Mat R n) (W : Mat n k) : Mat R k := fun i => rowDot (rowOf X (i 0)) W (i 1)

/-- A bias vector as a row. -/
def vecRow {n : Nat} (v : (⟨1, ![n]⟩ : Shape).Idx → EReal) : Fin n → EReal := fun c => v (ix1 c)

/-- A bias vector recast as a one-row matrix has the vector as its one row. -/
theorem theRow_shapeCast {n : Nat} (v : (⟨1, ![n]⟩ : Shape).Idx → EReal)
    (h : (⟨1, ![n]⟩ : Shape).ShapeCasts ⟨2, ![1, n]⟩) : theRow (shapeCast ⟨2, ![1, n]⟩ v h) = vecRow v :=
  funext fun c => shapeCast_a_1a_apply v h (0 : Fin 1) c

/-- A hidden layer on every node: `max (A + b) 0 · W`, the bias one row for all nodes. -/
def layerRows {R n k : Nat} (A : Mat R n) (b : Fin n → EReal) (W : Mat n k) : Mat R k :=
  fun i => layerRow (rowOf A (i 0)) b W (i 1)

/-- The head on every node: the log-softmax along the row of `max (A + b) 0 · W + c`. -/
def headRows {R n k : Nat} (A : Mat R n) (b : Fin n → EReal) (W : Mat n k) (c : Fin k → EReal) : Mat R k :=
  fun i => headRow (rowOf A (i 0)) b W c (i 1)

/-- Taking the maximum with `-∞` once more changes nothing: the fold already starts there. -/
theorem max_negInf_rowMax {k : Nat} (l : Fin k → EReal) : max negInfF (rowMax l) = rowMax l :=
  max_eq_right ((Finset.le_fold_max _).mpr (Or.inl le_rfl))

/-- The zero a sum starts from is the extended real zero. -/
theorem zeroF_eq : zeroF = 0 := Ideal.ofBits_zero_f32

end Cert.Gcn

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.LibRowOps.lean ====
/-
  Row-wise reductions and the "keepdims" layouts around them, read at an index.

  A reduction of an `a × b` matrix along its second axis gives one value per row, and a kernel then puts that value back
  beside every entry of the row: the `[a]` vector of row values is cast to a column `[a, 1]` and the column is broadcast
  to `[a, b]`. Read at `(p, c)` the result is the row value of row `p`. This file states each step at an index built by
  `ValueIdx.ix1` / `ix2`, for any extents:
  * the cast `[a] → [a, 1]` and the broadcast `[a, 1] → [a, b]`;
  * the source index a one-axis reduction inserts on the dropped axis, `(p, k)`;
  * on the extended reals, a row's maximum as the fold of `max` over the row and a row's sum as the sum over the row —
    for a vector unit's `multi_reduction` and for a host `reduce` alike, so that the two meet in one expression.
-/
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Reducing a matrix along its second axis: the source index over row `p` with `k` inserted is `(p, k)`. -/
theorem lift_ix1 {a b : ℕ} (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- A vector unit's maximum along the rows' axis, at row `p`, on the extended reals: the fold of `max` over the row,
    from the accumulator's value. -/
theorem multiReduction_max_row {a b : ℕ} (v : FVec Ideal (⟨2, ![a, b]⟩ : Shape) .f32) (acc : BitVec 32)
    (h : (⟨2, ![a, b]⟩ : Shape).Reduces [(1 : Fin 2)] ⟨1, ![a]⟩) (hφ : FKind.Formats .f32)
    (hacc : acc = FKind.maximumf.neutral .f32 hφ) (p : Fin a) :
    multiReduction .maximumf [(1 : Fin 2)] ⟨1, ![a]⟩ v acc h hφ hacc (ix1 p)
      = (Finset.univ : Finset (Fin b)).fold max (Ideal.ofBits .f32 acc) (fun k => v (ix2 p k)) := by
  refine (Ideal.multiReduction_maximumf_single v acc h hφ hacc (ix1 p)).trans ?_
  have e : (v ∘ h.lift (ix1 p)) = fun k : Fin b => v (ix2 p k) := funext fun k => congrArg v (lift_ix1 h p k)
  exact congrArg (fun f : Fin b → EReal => (Finset.univ : Finset (Fin b)).fold max (Ideal.ofBits .f32 acc) f) e

/-- A vector unit's sum along the rows' axis, at row `p`, on the extended reals: the sum over the row. -/
theorem multiReduction_add_row {a b : ℕ} (v : FVec Ideal (⟨2, ![a, b]⟩ : Shape) .f32) (acc : BitVec 32)
    (h : (⟨2, ![a, b]⟩ : Shape).Reduces [(1 : Fin 2)] ⟨1, ![a]⟩) (hφ : FKind.Formats .f32)
    (hacc : acc = FKind.add.neutral .f32 hφ) (p : Fin a) :
    multiReduction .add [(1 : Fin 2)] ⟨1, ![a]⟩ v acc h hφ hacc (ix1 p) = ∑ k : Fin b, v (ix2 p k) :=
  (Ideal.multiReduction_add_single v acc h hφ hacc (ix1 p)).trans
    (Finset.sum_congr rfl fun k _ => congrArg v (lift_ix1 h p k))

/-- A host `reduce` by `max` along the rows' axis, at row `p`, on the extended reals: the fold of `max` over the row,
    from the initial value. -/
theorem hostReduce_max_row {a b : ℕ} {u : Shape} (x : (⟨2, ![a, b]⟩ : Shape).Idx → EReal) (init : u.Idx → EReal)
    (h' : (⟨2, ![a, b]⟩ : Shape).ReducesTo [(1 : Fin 2)] ⟨1, ![a]⟩)
    (h : (⟨2, ![a, b]⟩ : Shape).Reduces [(1 : Fin 2)] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  refine (Host.reduce_eq_fold_single (FloatOps.maximumf (F := Ideal) (φ := .f32)) x init h' h hu (ix1 p)).trans ?_
  have e : (x ∘ h.lift (ix1 p)) = fun k : Fin b => x (ix2 p k) := funext fun k => congrArg x (lift_ix1 h p k)
  exact congrArg (fun f : Fin b → EReal => (Finset.univ : Finset (Fin b)).fold max (init (Shape.Idx.first hu)) f) e

/-- A host sum along the rows' axis, at row `p`, on the extended reals: the initial value plus the sum over the row. -/
theorem hostReduceAdd_row {a b : ℕ} (x : (⟨2, ![a, b]⟩ : Shape).Idx → EReal) (init : EReal)
    (h' : (⟨2, ![a, b]⟩ : Shape).ReducesTo [(1 : Fin 2)] ⟨1, ![a]⟩)
    (h : (⟨2, ![a, b]⟩ : Shape).Reduces [(1 : Fin 2)] ⟨1, ![a]⟩) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_ix1 h p k)))

end Cert.RowOps

end
-- ==== Proof.KernelRows.lean ====
/-
  The three kernel bodies, read at an entry of the block they store, on the extended reals.

  Each body loads a block of 5000 node rows (and whole weight and bias arrays) and stores one block of results. Entry
  `(p, q)` of the stored block depends on row `p` of the loaded block only:
  * the first body stores `x · W`: entry `(p, q)` is row `p` of the block times column `q` of `W`;
  * the second stores `max (a + b) 0 · W`, the bias `b` a one-row matrix broadcast down the rows;
  * the third stores the log-softmax of `max (a + b) 0 · W + c` along the row, with the row's maximum taken out first.
  Rounding the operands of a product to bf16 is the identity on the extended reals, and a product accumulated into the
  zero matrix is the plain sum over the shared axis.
-/
import proofs.«146125_j996432412810_1_alg».proof.Proof.Gen.KernelIdeal.Skeleton
import proofs.«146125_j996432412810_1_alg».proof.Proof.Spec
import proofs.«146125_j996432412810_1_alg».proof.Proof.LibPlainMatmul
import proofs.«146125_j996432412810_1_alg».proof.Proof.LibRowOps
import Idealize.ShloMosaic.Lib.ValueLayout
import Idealize.ShloMosaic.Lib.Pipeline.Value

noncomputable section

namespace Cert.KernelIdeal.Rows

open Cert.KernelIdeal Cert.KernelIdeal.Gen Idealize.ShloMosaic Idealize.ShloMosaic.ValueIdx
open Cert.Gcn Cert.PointConv Cert.RowOps

/-- The first body's stored block at `(p, q)`: row `p` of the loaded node block times column `q` of the weights. -/
theorem pay0_apply (x0 : Vec Ideal S5000x512 .f32) (x1 : Vec Ideal S512x128 .f32) (p : Fin 5000) (q : Fin 128) :
    k0_pay1 x0 x1 (ix2 p q) = rowDot (rowOf (R := 5000) (n := 512) x0 p) (x1 : Mat 512 128) q := by
  unfold k0_pay1
  exact plainMatmul_zero_apply (R := 5000) (n := 512) (k := 128) dot_S5000x512_S512x128_S5000x128_1_0_0_1_n_n_wf none
    (truncf .bf16 x0 bitsLt_bf16_f32) (truncf .bf16 x1 bitsLt_bf16_f32) p q

/-- Bias and rectifier of a loaded block, at `(p, c)`: `max (a (p, c) + b (0, c)) 0` — the same in the second and third bodies. -/
theorem hidden_apply (x0 : Vec Ideal S5000x128 .f32) (x1 : Vec Ideal S1x128 .f32) (p : Fin 5000) (c : Fin 128) :
    (maximumf (addf (shapeCast S5000x128 x0 shapeCasts_S5000x128_S5000x128)
        (broadcastTo S5000x128 (shapeCast S1x128 x1 shapeCasts_S1x128_S1x128) broadcasts_S1x128_S5000x128))
      (broadcast S5000x128 (Scalar.ofBits (F := Ideal) .f32 0x00000000#32)) : FVec Ideal S5000x128 .f32) (ix2 p c)
      = hiddenRow (rowOf (R := 5000) (n := 128) x0 p) (theRow (n := 128) x1) c := by
  show max ((shapeCast S5000x128 x0 shapeCasts_S5000x128_S5000x128) (ix2 p c)
      + (broadcastTo S5000x128 (shapeCast S1x128 x1 shapeCasts_S1x128_S1x128) broadcasts_S1x128_S5000x128) (ix2 p c)) _ = _
  rw [shapeCast_self, shapeCast_self, broadcastTo_1b_ab_apply]
  rfl

/-- The second body's stored block at `(p, q)`: the hidden layer on row `p` of the loaded block. -/
theorem pay1_apply (x0 : Vec Ideal S5000x128 .f32) (x1 : Vec Ideal S1x128 .f32) (x2 : Vec Ideal S128x128 .f32)
    (p : Fin 5000) (q : Fin 128) :
    k1_pay1 x0 x1 x2 (ix2 p q) = layerRow (rowOf (R := 5000) (n := 128) x0 p) (theRow (n := 128) x1) (x2 : Mat 128 128) q := by
  unfold k1_pay1
  refine (plainMatmul_zero_apply (R := 5000) (n := 128) (k := 128) dot_S5000x128_S128x128_S5000x128_1_0_0_1_n_n_wf none
    _ (truncf .bf16 x2 bitsLt_bf16_f32) p q).trans ?_
  unfold layerRow rowDot
  refine Finset.sum_congr rfl fun c _ => ?_
  exact congrArg (· * x2 (ix2 c q)) (hidden_apply x0 x1 p c)

/-- The third body's logits at `(p, q)`: the hidden layer on row `p`, plus the class bias. -/
theorem logits_apply (x0 : Vec Ideal S5000x128 .f32) (x1 : Vec Ideal S1x128 .f32) (x2 : Vec Ideal S128x64 .f32)
    (x3 : Vec Ideal S1x64 .f32) (p : Fin 5000) (q : Fin 64) :
    (addf (matmul dot_S5000x128_S128x64_S5000x64_1_0_0_1_n_n none
        (truncf .bf16 (maximumf (addf (shapeCast S5000x128 x0 shapeCasts_S5000x128_S5000x128)
            (broadcastTo S5000x128 (shapeCast S1x128 x1 shapeCasts_S1x128_S1x128) broadcasts_S1x128_S5000x128))
          (broadcast S5000x128 (Scalar.ofBits (F := Ideal) .f32 0x00000000#32))) bitsLt_bf16_f32)
        (truncf .bf16 x2 bitsLt_bf16_f32) (constant S5000x64 .f32 0x00000000#32))
      (broadcastTo S5000x64 (shapeCast S1x64 x3 shapeCasts_S1x64_S1x64) broadcasts_S1x64_S5000x64) : FVec Ideal S5000x64 .f32) (ix2 p q)
      = logitsRow (rowOf (R := 5000) (n := 128) x0 p) (theRow (n := 128) x1) (x2 : Mat 128 64) (theRow (n := 64) x3) q := by
  refine (addf_apply _ _ (ix2 p q)).trans ?_
  unfold logitsRow
  refine congrArg₂ (· + ·) ?_ ?_
  · refine (plainMatmul_zero_apply (R := 5000) (n := 128) (k := 64) dot_S5000x128_S128x64_S5000x64_1_0_0_1_n_n_wf none
      _ (truncf .bf16 x2 bitsLt_bf16_f32) p q).trans ?_
    unfold layerRow rowDot
    refine Finset.sum_congr rfl fun c _ => ?_
    exact congrArg (· * x2 (ix2 c q)) (hidden_apply x0 x1 p c)
  · show (broadcastTo S5000x64 (shapeCast S1x64 x3 shapeCasts_S1x64_S1x64) broadcasts_S1x64_S5000x64) (ix2 p q) = theRow (n := 64) x3 q
    rw [shapeCast_self, broadcastTo_1b_ab_apply]
    rfl

/-- The log-softmax the third body applies to a block `L` of logits, at `(p, q)`: that of row `p`. -/
theorem logSoftmax_apply (L : FVec Ideal S5000x64 .f32) (p : Fin 5000) (q : Fin 64) :
    (subf (subf L (broadcastTo S5000x64 (shapeCast S5000x1
        (multiReduction .maximumf [1] S5000 L 0xFF800000#32 reduces_S5000x64_S5000 (.inl rfl) rfl) shapeCasts_S5000_S5000x1)
        broadcasts_S5000x1_S5000x64))
      (broadcastTo S5000x64 (log (shapeCast S5000x1
        (multiReduction .add [1] S5000 (exp (subf L (broadcastTo S5000x64 (shapeCast S5000x1
          (multiReduction .maximumf [1] S5000 L 0xFF800000#32 reduces_S5000x64_S5000 (.inl rfl) rfl) shapeCasts_S5000_S5000x1)
          broadcasts_S5000x1_S5000x64))) 0x00000000#32 reduces_S5000x64_S5000 (.inl rfl) rfl) shapeCasts_S5000_S5000x1))
        broadcasts_S5000x1_S5000x64) : FVec Ideal S5000x64 .f32) (ix2 p q)
      = logSoftmaxRow (fun k : Fin 64 => L (ix2 p k)) q := by
  have hmax : ∀ c : Fin 64, (broadcastTo S5000x64 (shapeCast S5000x1
        (multiReduction .maximumf [1] S5000 L 0xFF800000#32 reduces_S5000x64_S5000 (.inl rfl) rfl) shapeCasts_S5000_S5000x1)
        broadcasts_S5000x1_S5000x64 : FVec Ideal S5000x64 .f32) (ix2 p c) = rowMax (fun k : Fin 64 => L (ix2 p k)) := fun c =>
    (broadcastTo_a1_ab_apply (a := 5000) (b := 64) _ broadcasts_S5000x1_S5000x64 p c).trans
      ((shapeCast_a_a1_apply (a := 5000) _ shapeCasts_S5000_S5000x1 p (0 : Fin 1)).trans
        (multiReduction_max_row (a := 5000) (b := 64) L 0xFF800000#32 reduces_S5000x64_S5000 (.inl rfl) rfl p))
  show (L (ix2 p q) - _) - _ = _
  rw [hmax q]
  unfold logSoftmaxRow
  refine congrArg ((L (ix2 p q) - rowMax fun k : Fin 64 => L (ix2 p k)) - ·) ?_
  refine (broadcastTo_a1_ab_apply (a := 5000) (b := 64) _ broadcasts_S5000x1_S5000x64 p q).trans ?_
  show Ideal.log ((shapeCast S5000x1 _ shapeCasts_S5000_S5000x1) (ix2 p (0 : Fin 1))) = _
  refine congrArg Ideal.log ?_
  refine (shapeCast_a_a1_apply (a := 5000) _ shapeCasts_S5000_S5000x1 p (0 : Fin 1)).trans ?_
  refine (multiReduction_add_row (a := 5000) (b := 64) _ 0x00000000#32 reduces_S5000x64_S5000 (.inl rfl) rfl p).trans ?_
  refine Finset.sum_congr rfl fun j _ => ?_
  show Ideal.exp (L (ix2 p j) - _) = _
  rw [hmax j]

/-- The third body's stored block at `(p, q)`: the head on row `p` of the loaded block. -/
theorem pay2_apply (x0 : Vec Ideal S5000x128 .f32) (x1 : Vec Ideal S1x128 .f32) (x2 : Vec Ideal S128x64 .f32)
    (x3 : Vec Ideal S1x64 .f32) (p : Fin 5000) (q : Fin 64) :
    k2_pay1 x0 x1 x2 x3 (ix2 p q)
      = headRow (rowOf (R := 5000) (n := 128) x0 p) (theRow (n := 128) x1) (x2 : Mat 128 64) (theRow (n := 64) x3) q := by
  unfold k2_pay1
  refine (logSoftmax_apply _ p q).trans ?_
  unfold headRow
  exact congrArg (fun l : Fin 64 → EReal => logSoftmaxRow l q) (funext fun k => logits_apply x0 x1 x2 x3 p k)

end Cert.KernelIdeal.Rows

end
-- ==== Proof.Blocks0.lean ====
/-
  The first product's region: from the blocks its grid points write back to the whole array.

  The region has ten grid points. Point `t` loads rows `5000 t … 5000 t + 4999` of the node features and the whole
  weight matrix, and writes back rows `5000 t … 5000 t + 4999` of the result. An entry of a written block depends on the
  matching row of the loaded block only, and that row is the same row of the feature ARRAY: so what point `t` writes
  back is block `t` of one function of the arrays, `productRows`. The ten blocks tile the result array (row `r` lies in
  the block of point `r / 5000`), hence the array ends holding that function — whatever the region found in its arrays
  on entry (`V`), which is how the next module instantiates it.
-/
import proofs.«146125_j996432412810_1_alg».proof.Proof.Gen.KernelIdeal.Frame
import proofs.«146125_j996432412810_1_alg».proof.Proof.KernelRows
import Idealize.ShloMosaic.Lib.Pipeline.Value

set_option maxRecDepth 16384

noncomputable section

namespace Cert.KernelIdeal.Blocks0

open Cert.KernelIdeal Cert.KernelIdeal.Gen Idealize.ShloMosaic Idealize.ShloMosaic.TcCoe Idealize.SL.Sem
open Idealize.ShloMosaic.ValueIdx
open Idealize.ShloMosaic.Pipeline (Dat)
open Cert.Gcn Cert.KernelIdeal.Rows

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the feature window and the result window sit at block row `t`, the
    weights' window and every column index at 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point `t` is rows `5000 t …` of the feature array. -/
theorem featBlock_apply (c : Dev nD) (t : Fin cfg0.N) (y : S5000x512.Idx) (k : S50000x512.Idx)
    (hk0 : (k 0).val = 5000 * t.val + (y 0).val) (hk1 : (k 1).val = (y 1).val) :
    (iblk0 V c 0 t : Vec Ideal S5000x512 .f32) y = (V c main_arg0 : S50000x512.Idx → Elt Ideal .f32) k := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t 0 * 5000 + 1 * (y 0).val = (k 0).val; rw [e0, hk0]; omega
  | ⟨1, _⟩ => show win0_0.index t 1 * 512 + 1 * (y 1).val = (k 1).val; rw [e1, hk1]; omega

/-- The weights' window holds the whole weight array at every point. -/
theorem weightBlock_eq (c : Dev nD) (t : Fin cfg0.N) :
    (iblk0 V c 1 t : Vec Ideal S512x128 .f32) = (V c main_arg1 : S512x128.Idx → Elt Ideal .f32) := by
  obtain ⟨-, -, e2, e3, -⟩ := idx_facts t
  funext y
  unfold iblk0
  rw [View.read_apply]
  show V c main_arg1 _ = V c main_arg1 y
  refine congrArg (V c main_arg1) (funext fun a => Fin.ext ?_)
  match a with
  | ⟨0, _⟩ => show win0_1.index t 0 * 512 + 1 * (y 0).val = (y 0).val; rw [e2]; omega
  | ⟨1, _⟩ => show win0_1.index t 1 * 128 + 1 * (y 1).val = (y 1).val; rw [e3]; omega

/-- An entry of the stored block is the entry of `productRows` of the arrays it sits at, once the loaded block's rows
    are known to be the array's: stated over variables of the literal block and array types. -/
theorem block_value (x0 : Vec Ideal S5000x512 .f32) (X : FVec Ideal S50000x512 .f32) (W : FVec Ideal S512x128 .f32)
    (j : S5000x128.Idx) (i : S50000x128.Idx)
    (hrow : ∀ (y : S5000x512.Idx) (k : S50000x512.Idx), (y 0).val = (j 0).val → (k 0).val = (i 0).val →
      (k 1).val = (y 1).val → x0 y = X k)
    (hcol : (i 1).val = (j 1).val) :
    k0_pay1 x0 W j = productRows (R := 50000) (n := 512) (k := 128) X W i := by
  obtain ⟨p, q, rfl⟩ : ∃ (p : Fin 5000) (q : Fin 128), j = ix2 p q := ⟨j 0, j 1, eq_ix2 j⟩
  obtain ⟨r, s, rfl⟩ : ∃ (r : Fin 50000) (s : Fin 128), i = ix2 r s := ⟨i 0, i 1, eq_ix2 i⟩
  obtain rfl : s = q := Fin.ext hcol
  refine (pay0_apply x0 W p s).trans ?_
  show rowDot (rowOf (R := 5000) (n := 512) x0 p) (W : Mat 512 128) s = rowDot (rowOf (R := 50000) (n := 512) X r) (W : Mat 512 128) s
  refine congrArg (fun row : Fin 512 → EReal => rowDot row (W : Mat 512 128) s) (funext fun k => ?_)
  exact hrow (ix2 p k) (ix2 r k) rfl rfl rfl

/-- WHAT POINT `t` WRITES BACK is block `t` of `productRows` of the arrays as the region finds them. -/
theorem flushed_eq (c : Dev nD) (t : Fin cfg0.N) :
    (dat0 V c).flushed 2 t = ((cfg0.win 2).blk t).view.read (Elt Ideal)
      (productRows (R := 50000) (n := 512) (k := 128) (V c main_arg0) (V c main_arg1)) := by
  obtain ⟨-, -, -, -, e4, e5⟩ := idx_facts t
  show (cfg0.win 2).cut (grid0.coords t) ((dat0 V c).after 2 t) = _
  rw [after0_2]
  unfold out0_2
  rw [View.canon_unit_zero hz]
  simp only [View.ld_unit_zero (S := S5000x512) hz, View.ld_unit_zero (S := S512x128) hz]
  rw [weightBlock_eq V c t]
  funext j
  show k0_pay1 (iblk0 V c 0 t) (V c main_arg1) j
    = productRows (R := 50000) (n := 512) (k := 128) (V c main_arg0) (V c main_arg1) (((cfg0.win 2).blk t).view.emb j)
  refine block_value (iblk0 V c 0 t) (V c main_arg0) (V c main_arg1) j (((cfg0.win 2).blk t).view.emb j) ?_ ?_
  · intro y k h0 h1 h2
    have h1' : (k 0).val = win0_2.index t 0 * 5000 + 1 * (j 0).val := h1
    exact featBlock_apply V c t y k (by rw [h1', e4, h0]; omega) h2
  · show win0_2.index t 1 * 128 + 1 * (j 1).val = (j 1).val
    rw [e5]; omega

/-- An index of the result array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- Every index of the result array is in some point's block: row `r` in that of point `r / 5000`. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, e4, e5⟩ := idx_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ 0 * 5000 ≤ (i 0).val
      ∧ (i 0).val < win0_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ 1 * 128 ≤ (i 1).val
      ∧ (i 1).val < win0_2.index ⟨(i 0).val / 5000, ht⟩ 1 * 128 + 128
    rw [e5]; omega

/-- THE RESULT ARRAY after the region: `productRows` of the feature and weight arrays as the region found them. -/
theorem final (c : Dev nD) :
    (dat0 V c).arrAt 2 cfg0.N = productRows (R := 50000) (n := 512) (k := 128) (V c main_arg0) (V c main_arg1) :=
  (dat0 V c).arrAt_eq_of_cover 2 _ (fun t _ => flushed_eq V c t) cover

end Cert.KernelIdeal.Blocks0

end
-- ==== Proof.Blocks1.lean ====
/-
  The hidden layer's region: from the blocks its grid points write back to the whole array.

  Ten grid points. Point `t` loads rows `5000 t … 5000 t + 4999` of the aggregated node array, the one-row bias and the
  whole weight matrix, and writes back the same rows of the result: bias, rectifier and product, row by row. An entry of a
  written block depends on the matching row of the loaded node block only, which is the same row of the node ARRAY; so
  point `t` writes block `t` of `layerRows` of the arrays, the ten blocks tile the result array, and the array ends
  holding that function of whatever the region found in its arrays on entry (`V`).
-/
import proofs.«146125_j996432412810_1_alg».proof.Proof.Gen.KernelIdeal.Frame
import proofs.«146125_j996432412810_1_alg».proof.Proof.KernelRows
import Idealize.ShloMosaic.Lib.Pipeline.Value

set_option maxRecDepth 16384

noncomputable section

namespace Cert.KernelIdeal.Blocks1

open Cert.KernelIdeal Cert.KernelIdeal.Gen Idealize.ShloMosaic Idealize.ShloMosaic.TcCoe Idealize.SL.Sem
open Idealize.ShloMosaic.ValueIdx
open Idealize.ShloMosaic.Pipeline (Dat)
open Cert.Gcn Cert.KernelIdeal.Rows

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the node window and the result window sit at block row `t`; the bias,
    the weights and every column index at 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The node window's block at point `t` is rows `5000 t …` of the node array. -/
theorem nodeBlock_apply (c : Dev nD) (t : Fin cfg1.N) (y : S5000x128.Idx) (k : S50000x128.Idx)
    (hk0 : (k 0).val = 5000 * t.val + (y 0).val) (hk1 : (k 1).val = (y 1).val) :
    (iblk1 V c 0 t : Vec Ideal S5000x128 .f32) y = (V c main_v43 : S50000x128.Idx → Elt Ideal .f32) k := by
  obtain ⟨e0, e1, -⟩ := idx_facts t
  unfold iblk1
  rw [View.read_apply]
  show V c main_v43 _ = V c main_v43 _
  refine congrArg (V c main_v43) (funext fun a => Fin.ext ?_)
  match a with
  | ⟨0, _⟩ => show win1_0.index t 0 * 5000 + 1 * (y 0).val = (k 0).val; rw [e0, hk0]; omega
  | ⟨1, _⟩ => show win1_0.index t 1 * 128 + 1 * (y 1).val = (k 1).val; rw [e1, hk1]; omega

/-- The bias window holds the whole one-row bias array at every point. -/
theorem biasBlock_eq (c : Dev nD) (t : Fin cfg1.N) :
    (iblk1 V c 1 t : Vec Ideal S1x128 .f32) = (V c main_v44 : S1x128.Idx → Elt Ideal .f32) := by
  obtain ⟨-, -, e2, e3, -⟩ := idx_facts t
  funext y
  unfold iblk1
  rw [View.read_apply]
  show V c main_v44 _ = V c main_v44 y
  refine congrArg (V c main_v44) (funext fun a => Fin.ext ?_)
  match a with
  | ⟨0, _⟩ => show win1_1.index t 0 * 1 + 1 * (y 0).val = (y 0).val; rw [e2]; omega
  | ⟨1, _⟩ => show win1_1.index t 1 * 128 + 1 * (y 1).val = (y 1).val; rw [e3]; omega

/-- The weights' window holds the whole weight array at every point. -/
theorem weightBlock_eq (c : Dev nD) (t : Fin cfg1.N) :
    (iblk1 V c 2 t : Vec Ideal S128x128 .f32) = (V c main_arg3 : S128x128.Idx → Elt Ideal .f32) := by
  obtain ⟨-, -, -, -, e4, e5, -⟩ := idx_facts t
  funext y
  unfold iblk1
  rw [View.read_apply]
  show V c main_arg3 _ = V c main_arg3 y
  refine congrArg (V c main_arg3) (funext fun a => Fin.ext ?_)
  match a with
  | ⟨0, _⟩ => show win1_2.index t 0 * 128 + 1 * (y 0).val = (y 0).val; rw [e4]; omega
  | ⟨1, _⟩ => show win1_2.index t 1 * 128 + 1 * (y 1).val = (y 1).val; rw [e5]; omega

/-- An entry of the stored block is the entry of `layerRows` of the arrays it sits at, once the loaded node block's rows
    are known to be the array's: stated over variables of the literal block and array types. -/
theorem block_value (x0 : Vec Ideal S5000x128 .f32) (A : FVec Ideal S50000x128 .f32) (b : Vec Ideal S1x128 .f32)
    (W : FVec Ideal S128x128 .f32) (j : S5000x128.Idx) (i : S50000x128.Idx)
    (hrow : ∀ (y : S5000x128.Idx) (k : S50000x128.Idx), (y 0).val = (j 0).val → (k 0).val = (i 0).val →
      (k 1).val = (y 1).val → x0 y = A k)
    (hcol : (i 1).val = (j 1).val) :
    k1_pay1 x0 b W j = layerRows (R := 50000) (n := 128) (k := 128) A (theRow (n := 128) b) W i := by
  obtain ⟨p, q, rfl⟩ : ∃ (p : Fin 5000) (q : Fin 128), j = ix2 p q := ⟨j 0, j 1, eq_ix2 j⟩
  obtain ⟨r, s, rfl⟩ : ∃ (r : Fin 50000) (s : Fin 128), i = ix2 r s := ⟨i 0, i 1, eq_ix2 i⟩
  obtain rfl : s = q := Fin.ext hcol
  refine (pay1_apply x0 b W p s).trans ?_
  show layerRow (rowOf (R := 5000) (n := 128) x0 p) (theRow (n := 128) b) (W : Mat 128 128) s
    = layerRow (rowOf (R := 50000) (n := 128) A r) (theRow (n := 128) b) (W : Mat 128 128) s
  refine congrArg (fun row : Fin 128 → EReal => layerRow row (theRow (n := 128) b) (W : Mat 128 128) s) (funext fun k => ?_)
  exact hrow (ix2 p k) (ix2 r k) rfl rfl rfl

/-- WHAT POINT `t` WRITES BACK is block `t` of `layerRows` of the arrays as the region finds them. -/
theorem flushed_eq (c : Dev nD) (t : Fin cfg1.N) :
    (dat1 V c).flushed 3 t = ((cfg1.win 3).blk t).view.read (Elt Ideal)
      (layerRows (R := 50000) (n := 128) (k := 128) (V c main_v43) (theRow (n := 128) (V c main_v44)) (V c main_arg3)) := by
  obtain ⟨-, -, -, -, -, -, e6, e7⟩ := idx_facts t
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x128) hz]
  rw [biasBlock_eq V c t, weightBlock_eq V c t]
  funext j
  show k1_pay1 (iblk1 V c 0 t) (V c main_v44) (V c main_arg3) j
    = layerRows (R := 50000) (n := 128) (k := 128) (V c main_v43) (theRow (n := 128) (V c main_v44)) (V c main_arg3)
        (((cfg1.win 3).blk t).view.emb j)
  refine block_value (iblk1 V c 0 t) (V c main_v43) (V c main_v44) (V c main_arg3) j (((cfg1.win 3).blk t).view.emb j) ?_ ?_
  · intro y k h0 h1 h2
    have h1' : (k 0).val = win1_3.index t 0 * 5000 + 1 * (j 0).val := h1
    exact nodeBlock_apply V c t y k (by rw [h1', e6, h0]; omega) h2
  · show win1_3.index t 1 * 128 + 1 * (j 1).val = (j 1).val
    rw [e7]; omega

/-- An index of the result array is in point `t`'s block iff each coordinate is in the block's range on its axis. -/
theorem mem_blk (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v45).slice (win1_3.rect t)).set ↔ _
  rw [View.set_slice_whole, Rect.mem_set_unit]
  exact Iff.rfl

/-- Every index of the result array is in some point's block: row `r` in that of point `r / 5000`. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨-, -, -, -, -, -, e6, e7⟩ := idx_facts ⟨(i 0).val / 5000, ht⟩
  refine ⟨⟨(i 0).val / 5000, ht⟩, flush1_3 _, ?_⟩
  rw [mem_blk]
  intro a
  match a with
  | ⟨0, _⟩ =>
    show win1_3.index ⟨(i 0).val / 5000, ht⟩ 0 * 5000 ≤ (i 0).val
      ∧ (i 0).val < win1_3.index ⟨(i 0).val / 5000, ht⟩ 0 * 5000 + 5000
    rw [e6]; show (i 0).val / 5000 * 5000 ≤ (i 0).val ∧ (i 0).val < (i 0).val / 5000 * 5000 + 5000; omega
  | ⟨1, _⟩ =>
    show win1_3.index ⟨(i 0).val / 5000, ht⟩ 1 * 128 ≤ (i 1).val
      ∧ (i 1).val < win1_3.index ⟨(i 0).val / 5000, ht⟩ 1 * 128 + 128
    rw [e7]; omega

/-- THE RESULT ARRAY after the region: `layerRows` of the node, bias and weight arrays as the region found them. -/
theorem final (c : Dev nD) :
    (dat1 V c).arrAt 3 cfg1.N
      = layerRows (R := 50000) (n := 128) (k := 128) (V c main_v43) (theRow (n := 128) (V c main_v44)) (V c main_arg3) :=
  (dat1 V c).arrAt_eq_of_cover 3 _ (fun t _ => flushed_eq V c t) cover

end Cert.KernelIdeal.Blocks1

end
-- ==== Proof.Blocks2.lean ====
/-
  The head's region: from the blocks its grid points write back to the whole array.

  Ten grid points. Point `t` loads rows `5000 t … 5000 t + 4999` of the aggregated node array, the one-row hidden bias,
  the whole class weight matrix and the one-row class bias, and writes back the same rows of the result: bias, rectifier,
  product, class bias, and the log-softmax along each row. An entry of a written block depends on the matching row of the
  loaded node block only, which is the same row of the node ARRAY; so point `t` writes block `t` of `headRows` of the
  arrays, the ten blocks tile the result array, and the array ends holding that function of whatever the region found in
  its arrays on entry (`V`).
-/
import proofs.«146125_j996432412810_1_alg».proof.Proof.Gen.KernelIdeal.Frame
import proofs.«146125_j996432412810_1_alg».proof.Proof.KernelRows
import Idealize.ShloMosaic.Lib.Pipeline.Value

set_option maxRecDepth 16384

noncomputable section

namespace Cert.KernelIdeal.Blocks2

open Cert.KernelIdeal Cert.KernelIdeal.Gen Idealize.ShloMosaic Idealize.ShloMosaic.TcCoe Idealize.SL.Sem
open Idealize.ShloMosaic.ValueIdx
open Idealize.ShloMosaic.Pipeline (Dat)
open Cert.Gcn Cert.KernelIdeal.Rows

variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten points: the node window and the result window sit at block row `t`; the two
    biases, the weights and every column index at 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The node window's block at point `t` is rows `5000 t …` of the node array. -/
theorem nodeBlock_apply (c : Dev nD) (t : Fin cfg2.N) (y : S5000x128.Idx) (k : S50000x128.Idx)
    (hk0 : (k 0).val = 5000 * t.val + (y 0).val) (hk1 : (k 1).val = (y 1).val) :
    (iblk2 V c 0 t : Vec Ideal S5000x128 .f32) y = (V c main_v58 : S50000x128.Idx → Elt Ideal .f32) k := by
  obtain ⟨e0, e1, -⟩ := idx_facts t
  unfold iblk2
  rw [View.read_apply]
  show V c main_v58 _ = V c main_v58 _
  refine congrArg (V c main_v58) (funext fun a => Fin.ext ?_)
  match a with
  | ⟨0, _⟩ => show win2_0.index t 0 * 5000 + 1 * (y 0).val = (k 0).val; rw [e0, hk0]; omega
  | ⟨1, _⟩ => show win2_0.index t 1 * 128 + 1 * (y 1).val = (k 1).val; rw [e1, hk1]; omega

/-- The hidden bias window holds the whole one-row bias array at every point. -/
theorem biasBlock_eq (c : Dev nD) (t : Fin cfg2.N) :
    (iblk2 V c 1 t : Vec Ideal S1x128 .f32) = (V c main_v59 : S1x128.Idx → Elt Ideal .f32) := by
  obtain ⟨-, -, e2, e3, -⟩ := idx_facts t
  funext y
  unfold iblk2
  rw [View.read_apply]
  show V c main_v59 _ = V c main_v59 y
  refine congrArg (V c main_v59) (funext fun a => Fin.ext ?_)
  match a with
  | ⟨0, _⟩ => show win2_1.index t 0 * 1 + 1 * (y 0).val = (y 0).val; rw [e2]; omega
  | ⟨1, _⟩ => show win2_1.index t 1 * 128 + 1 * (y 1).val = (y 1).val; rw [e3]; omega

/-- The weights' window holds the whole class weight array at every point. -/
theorem weightBlock_eq (c : Dev nD) (t : Fin cfg2.N) :
    (iblk2 V c 2 t : Vec Ideal S128x64 .f32) = (V c main_arg5 : S128x64.Idx → Elt Ideal .f32) := by
  obtain ⟨-, -, -, -, e4, e5, -⟩ := idx_facts t
  funext y
  unfold iblk2
  rw [View.read_apply]
  show V c main_arg5 _ = V c main_arg5 y
  refine congrArg (V c main_arg5) (funext fun a => Fin.ext ?_)
  match a with
  | ⟨0, _⟩ => show win2_2.index t 0 * 128 + 1 * (y 0).val = (y 0).val; rw [e4]; omega
  | ⟨1, _⟩ => show win2_2.index t 1 * 64 + 1 * (y 1).val = (y 1).val; rw [e5]; omega

/-- The class bias window holds the whole one-row class bias array at every point. -/
theorem classBiasBlock_eq (c : Dev nD) (t : Fin cfg2.N) :
    (iblk2 V c 3 t : Vec Ideal S1x64 .f32) = (V c main_v60 : S1x64.Idx → Elt Ideal .f32) := by
  obtain ⟨-, -, -, -, -, -, e6, e7, -⟩ := idx_facts t
  funext y
  unfold iblk2
  rw [View.read_apply]
  show V c main_v60 _ = V c main_v60 y
  refine congrArg (V c main_v60) (funext fun a => Fin.ext ?_)
  match a with
  | ⟨0, _⟩ => show win2_3.index t 0 * 1 + 1 * (y 0).val = (y 0).val; rw [e6]; omega
  | ⟨1, _⟩ => show win2_3.index t 1 * 64 + 1 * (y 1).val = (y 1).val; rw [e7]; omega

/-- An entry of the stored block is the entry of `headRows` of the arrays it sits at, once the loaded node block's rows
    are known to be the array's: stated over variables of the literal block and array types. -/
theorem block_value (x0 : Vec Ideal S5000x128 .f32) (A : FVec Ideal S50000x128 .f32) (b : Vec Ideal S1x128 .f32)
    (W : FVec Ideal S128x64 .f32) (cb : Vec Ideal S1x64 .f32) (j : S5000x64.Idx) (i : S50000x64.Idx)
    (hrow : ∀ (y : S5000x128.Idx) (k : S50000x128.Idx), (y 0).val = (j 0).val → (k 0).val = (i 0).val →
      (k 1).val = (y 1).val → x0 y = A k)
    (hcol : (i 1).val = (j 1).val) :
    k2_pay1 x0 b W cb j
      = headRows (R := 50000) (n := 128) (k := 64) A (theRow (n := 128) b) W (theRow (n := 64) cb) i := by
  obtain ⟨p, q, rfl⟩ : ∃ (p : Fin 5000) (q : Fin 64), j = ix2 p q := ⟨j 0, j 1, eq_ix2 j⟩
  obtain ⟨r, s, rfl⟩ : ∃ (r : Fin 50000) (s : Fin 64), i = ix2 r s := ⟨i 0, i 1, eq_ix2 i⟩
  obtain rfl : s = q := Fin.ext hcol
  refine (pay2_apply x0 b W cb p s).trans ?_
  show headRow (rowOf (R := 5000) (n := 128) x0 p) (theRow (n := 128) b) (W : Mat 128 64) (theRow (n := 64) cb) s
    = headRow (rowOf (R := 50000) (n := 128) A r) (theRow (n := 128) b) (W : Mat 128 64) (theRow (n := 64) cb) s
  refine congrArg (fun row : Fin 128 → EReal => headRow row (theRow (n := 128) b) (W : Mat 128 64) (theRow (n := 64) cb) s)
    (funext fun k => ?_)
  exact hrow (ix2 p k) (ix2 r k) rfl rfl rfl

/-- WHAT POINT `t` WRITES BACK is block `t` of `headRows` of the arrays as the region finds them. -/
theorem flushed_eq (c : Dev nD) (t : Fin cfg2.N) :
    (dat2 V c).flushed 4 t = ((cfg2.win 4).blk t).view.read (Elt Ideal)
      (headRows (R := 50000) (n := 128) (k := 64) (V c main_v58) (theRow (n := 128) (V c main_v59)) (V c main_arg5)
        (theRow (n := 64) (V c main_v60))) := by
  obtain ⟨-, -, -, -, -, -, -, -, e8, e9⟩ := idx_facts t
  show (cfg2.win 4).cut (grid2.coords t) ((dat2 V c).after 4 t) = _
  rw [after2_4]
  unfold out2_4
  rw [View.canon_unit_zero hz]
  simp only [View.ld_unit_zero (S := S5000x128) hz, View.ld_unit_zero (S := S1x128) hz, View.ld_unit_zero (S := S128x64) hz,
    View.ld_unit_zero (S := S1x64) hz]
  rw [biasBlock_eq V c t, weightBlock_eq V c t, classBiasBlock_eq V c t]
  funext j
  show k2_pay1 (iblk2 V c 0 t) (V c main_v59) (V c main_arg5) (V c main_v60) j
    = headRows (R := 50000) (n := 128) (k := 64) (V c main_v58) (theRow (n := 128) (V c main_v59)) (V c main_arg5)
        (theRow (n := 64) (V c main_v60)) (((cfg2.win 4).blk t).view.emb j)
  refine block_value (iblk2 V c 0 t) (V c main_v58) (V c main_v59) (V c main_arg5) (V c main_v60) j
    (((cfg2.win 4).blk t).view.emb j) ?_ ?_
  · intro y k h0 h1 h2
    have h1' : (k 0).val = win2_4.index t 0 * 5000 + 1 * (j 0).val := h1
    exact nodeBlock_apply V c t y k (by rw [h1', e8, h0]; omega) h2
  · show win2_4.index t 1 * 64 + 1 * (j 1).val = (j 1).val
    rw [e9]; omega

/-- An index of the result array is in point `t`'s block iff each coordinate is in the block's range on its axis. -/
theorem mem_blk (t : Fin cfg2.N) (i : S50000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v61).slice (win2_4.rect t)).set ↔ _
  rw [View.set_slice_whole, Rect.mem_set_unit]
  exact Iff.rfl

/-- Every index of the result array is in some point's block: row `r` in that of point `r / 5000`. -/
theorem cover (i : S50000x64.Idx) :
    ∃ t : Fin cfg2.N, (cfg2.win 4).flush t = true ∧ i ∈ ((cfg2.win 4).blk t).view.set := by
  have hi0 : (i 0).val < 50000 := (i 0).isLt
  have hi1 : (i 1).val < 64 := (i 1).isLt
  have hN : cfg2.N = 10 := N_2
  have ht : (i 0).val / 5000 < cfg2.N := by rw [hN]; omega
  obtain ⟨-, -, -, -, -, -, -, -, e8, e9⟩ := idx_facts ⟨(i 0).val / 5000, ht⟩
  refine ⟨⟨(i 0).val / 5000, ht⟩, flush2_4 _, ?_⟩
  rw [mem_blk]
  intro a
  match a with
  | ⟨0, _⟩ =>
    show win2_4.index ⟨(i 0).val / 5000, ht⟩ 0 * 5000 ≤ (i 0).val
      ∧ (i 0).val < win2_4.index ⟨(i 0).val / 5000, ht⟩ 0 * 5000 + 5000
    rw [e8]; show (i 0).val / 5000 * 5000 ≤ (i 0).val ∧ (i 0).val < (i 0).val / 5000 * 5000 + 5000; omega
  | ⟨1, _⟩ =>
    show win2_4.index ⟨(i 0).val / 5000, ht⟩ 1 * 64 ≤ (i 1).val
      ∧ (i 1).val < win2_4.index ⟨(i 0).val / 5000, ht⟩ 1 * 64 + 64
    rw [e9]; omega

/-- THE RESULT ARRAY after the region: `headRows` of the node, bias, weight and class bias arrays as the region found them. -/
theorem final (c : Dev nD) :
    (dat2 V c).arrAt 4 cfg2.N
      = headRows (R := 50000) (n := 128) (k := 64) (V c main_v58) (theRow (n := 128) (V c main_v59)) (V c main_arg5)
          (theRow (n := 64) (V c main_v60)) :=
  (dat2 V c).arrAt_eq_of_cover 4 _ (fun t _ => flushed_eq V c t) cover

end Cert.KernelIdeal.Blocks2

end
-- ==== Proof.KernelValue.lean ====
/-
  What the three-stage program returns, as one expression of its arguments.

  Putting the pieces in order: the first region leaves `X · W₁` (row by row) in its result array; the host aggregates it
  over the graph's edges; the second region leaves the hidden layer of that; the host aggregates again; the head region
  leaves the log-softmax head of that, and its result array is the program's result buffer. The edges' source and target
  vectors and their weights are computed once, before the first region, from the edge list (`src`, `dst`, `wgt`), and no
  later stretch or region writes them.
-/
import proofs.«146125_j996432412810_1_alg».proof.Proof.KernelRun
import proofs.«146125_j996432412810_1_alg».proof.Proof.KernelBetween
import proofs.«146125_j996432412810_1_alg».proof.Proof.Blocks0
import proofs.«146125_j996432412810_1_alg».proof.Proof.Blocks1
import proofs.«146125_j996432412810_1_alg».proof.Proof.Blocks2

set_option maxRecDepth 16384

noncomputable section

namespace Cert.KernelIdeal.Whole

open Cert.KernelIdeal Cert.KernelIdeal.Gen Idealize.ShloMosaic Idealize.ShloMosaic.TcCoe Idealize.SL.Sem
open Cert.Gcn Cert.KernelIdeal.Between Cert.KernelIdeal.Result

variable (m : (ℓ : Loc nD τ sig) → Buf (Elt Ideal) ℓ) (ρ : Dev nD → PrngReg)

/-- The edges' sources, their targets and their weights, from the edge list. -/
abbrev src (c : Dev nD) := srcOf (F := Ideal) (m ((c : Thread nD τ).loc main_arg7))
abbrev dst (c : Dev nD) := dstOf (F := Ideal) (m ((c : Thread nD τ).loc main_arg7))
abbrev wgt (c : Dev nD) := weightOf (src m c) (dst m c)

/-- The first region's result: `X · W₁`. -/
def feat1 (c : Dev nD) : (⟨S50000x128, .f32⟩ : BufTy).Contents (Elt Ideal) :=
  productRows (R := 50000) (n := 512) (k := 128) (m ((c : Thread nD τ).loc main_arg0)) (m ((c : Thread nD τ).loc main_arg1))

/-- The second region's result: the hidden layer of the aggregated first result. -/
def feat2 (c : Dev nD) : (⟨S50000x128, .f32⟩ : BufTy).Contents (Elt Ideal) :=
  layerRows (R := 50000) (n := 128) (k := 128) (aggregate (feat1 m c) (src m c) (dst m c) (wgt m c))
    (vecRow (n := 128) (m ((c : Thread nD τ).loc main_arg2))) (m ((c : Thread nD τ).loc main_arg3))

/-- The program's result: the head of the aggregated second result. -/
def result (c : Dev nD) : (⟨S50000x64, .f32⟩ : BufTy).Contents (Elt Ideal) :=
  headRows (R := 50000) (n := 128) (k := 64) (aggregate (feat2 m c) (src m c) (dst m c) (wgt m c))
    (vecRow (n := 128) (m ((c : Thread nD τ).loc main_arg4))) (m ((c : Thread nD τ).loc main_arg5))
    (vecRow (n := 64) (m ((c : Thread nD τ).loc main_arg6)))

/-- After the first region its result array holds `feat1`. -/
theorem v30_eq (c : Dev nD) : W4 m ρ c (Proc.devRef .tc main_v30) = feat1 m c := by
  rw [show W4 m ρ c (Proc.devRef .tc main_v30) = (dat0 (V3 m ρ) c).arrAt 2 cfg0.N from W4_arr m ρ c 2,
    Blocks0.final (V3 m ρ) c]
  show productRows (R := 50000) (n := 512) (k := 128) (W3 m ρ c (Proc.devRef .tc main_arg0)) (W3 m ρ c (Proc.devRef .tc main_arg1)) = _
  rw [(args_entry m ρ c).1, (args_entry m ρ c).2.1]
  rfl

/-- The second region finds the aggregation of `feat1` in its node array. -/
theorem v43_eq (c : Dev nD) :
    W5 m ρ c (Proc.devRef .tc main_v43) = aggregate (feat1 m c) (src m c) (dst m c) (wgt m c) := by
  rw [agg1_eq, v30_eq, (across0 m ρ c).2.2.1, (across0 m ρ c).2.2.2.1, (across0 m ρ c).2.2.2.2.1,
    src_entry, dst_entry, wgt_entry]

/-- After the second region its result array holds `feat2`. -/
theorem v45_eq (c : Dev nD) : W6 m ρ c (Proc.devRef .tc main_v45) = feat2 m c := by
  rw [show W6 m ρ c (Proc.devRef .tc main_v45) = (dat1 (V5 m ρ) c).arrAt 3 cfg1.N from W6_arr m ρ c 3,
    Blocks1.final (V5 m ρ) c]
  show layerRows (R := 50000) (n := 128) (k := 128) (W5 m ρ c (Proc.devRef .tc main_v43))
    (theRow (n := 128) (W5 m ρ c (Proc.devRef .tc main_v44))) (W5 m ρ c (Proc.devRef .tc main_arg3)) = _
  rw [v43_eq, bias1_eq, (keep1 m ρ c).1, (across0 m ρ c).1, (across0 m ρ c).2.1, (args_entry m ρ c).2.2.1,
    (args_entry m ρ c).2.2.2.1, theRow_shapeCast]
  rfl

/-- The head region finds the aggregation of `feat2` in its node array. -/
theorem v58_eq (c : Dev nD) :
    W7 m ρ c (Proc.devRef .tc main_v58) = aggregate (feat2 m c) (src m c) (dst m c) (wgt m c) := by
  rw [agg2_eq, v45_eq, (across1 m ρ c).1, (across1 m ρ c).2.1, (across1 m ρ c).2.2.1, (keep1 m ρ c).2.1, (keep1 m ρ c).2.2.1,
    (keep1 m ρ c).2.2.2.1, (across0 m ρ c).2.2.1, (across0 m ρ c).2.2.2.1, (across0 m ρ c).2.2.2.2.1,
    src_entry, dst_entry, wgt_entry]

/-- The program's result buffer ends holding `result`. -/
theorem v61_eq (c : Dev nD) : W8 m ρ c (Proc.devRef .tc main_v61) = result m c := by
  rw [W8_result, Blocks2.final (V7 m ρ) c]
  show headRows (R := 50000) (n := 128) (k := 64) (W7 m ρ c (Proc.devRef .tc main_v58))
    (theRow (n := 128) (W7 m ρ c (Proc.devRef .tc main_v59))) (W7 m ρ c (Proc.devRef .tc main_arg5))
    (theRow (n := 64) (W7 m ρ c (Proc.devRef .tc main_v60))) = _
  rw [v58_eq, (bias2_eq m ρ c).1, (bias2_eq m ρ c).2, keep2,
    (across1 m ρ c).2.2.2.1, (across1 m ρ c).2.2.2.2.1, (across1 m ρ c).2.2.2.2.2,
    (keep1 m ρ c).2.2.2.2.1, (keep1 m ρ c).2.2.2.2.2.1, (keep1 m ρ c).2.2.2.2.2.2,
    (across0 m ρ c).2.2.2.2.2.1, (across0 m ρ c).2.2.2.2.2.2.1, (across0 m ρ c).2.2.2.2.2.2.2,
    (args_entry m ρ c).2.2.2.2.1, (args_entry m ρ c).2.2.2.2.2.1, (args_entry m ρ c).2.2.2.2.2.2,
    theRow_shapeCast, theRow_shapeCast]
  rfl

/-- THE RUN, with the result read: every weakly fair execution terminates, nothing faulting, with the result buffer at
    `result` and the arguments as launched. -/
theorem run : θ_run defs (onTc (τ := τ) (main (F := Ideal))) ⟨m, fun _ => 0, ρ⟩ (fun r => ∀ c : Dev nD,
      r.2.mem ((c.tc : Thread nD τ).loc main_v61) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (v61_eq m ρ c), (h c).2⟩) (run_result m ρ)

end Cert.KernelIdeal.Whole

end
-- ==== Proof.RefStages.lean ====
/-
  The reference's dense stages are the specification's row functions.

  The reference computes the same three dense stages on whole arrays: `X · W` by a `dot_general`; bias, rectifier and a
  `dot_general`; and, for the head, bias, rectifier, `dot_general`, class bias and jax's log-softmax (the row's maximum
  taken out, exponentials summed along the row, the logarithm subtracted). Read at an entry `(r, q)`, each is the row
  function of row `r` of its node array: the `dot_general` is the sum over the shared axis, a bias vector broadcast as a
  row and then down the rows reads the vector at the column, the host's maximum and sum along a row are the fold and the
  sum over the row, and one more maximum with `-∞` changes nothing. What goes INTO a stage — the aggregation over the
  graph's edges of the stage before — stays a name.
-/
import proofs.«146125_j996432412810_1_alg».proof.Proof.RefReadPatched
import proofs.«146125_j996432412810_1_alg».proof.Proof.Spec
import proofs.«146125_j996432412810_1_alg».proof.Proof.LibRowOps

noncomputable section

namespace Cert.ReferenceIdeal.Stages

open Cert.ReferenceIdeal Cert.ReferenceIdeal.Gen Cert.ReferenceIdeal.ReadP
open Idealize.ShloMosaic Idealize.ShloMosaic.ValueIdx Cert.Gcn Cert.RowOps

variable (x0 : (⟨S50000x512, .f32⟩ : BufTy).Contents (Elt Ideal)) (x1 : (⟨S512x128, .f32⟩ : BufTy).Contents (Elt Ideal))
  (x2 : (⟨S128, .f32⟩ : BufTy).Contents (Elt Ideal)) (x3 : (⟨S128x128, .f32⟩ : BufTy).Contents (Elt Ideal))
  (x4 : (⟨S128, .f32⟩ : BufTy).Contents (Elt Ideal)) (x5 : (⟨S128x64, .f32⟩ : BufTy).Contents (Elt Ideal))
  (x6 : (⟨S64, .f32⟩ : BufTy).Contents (Elt Ideal)) (x7 : (⟨S2x800000, .i32⟩ : BufTy).Contents (Elt Ideal))

/-- The first `dot_general` is `X · W` row by row. -/
theorem product_eq : val_main_v30 (F := Ideal) x0 x1 = productRows (R := 50000) (n := 512) (k := 128) x0 x1 := by
  funext i
  obtain ⟨r, s, rfl⟩ : ∃ (r : Fin 50000) (s : Fin 128), i = ix2 r s := ⟨i 0, i 1, eq_ix2 i⟩
  rw [val_main_v30_apply]
  have key : ∀ k : Fin 512, x0 (lidx_main_v30 (ix2 r s) k) * x1 (ridx_main_v30 (ix2 r s) k) = x0 (ix2 r k) * x1 (ix2 k s) := fun k => by
    have hl : lidx_main_v30 (ix2 r s) k = ix2 r k := funext fun a => by match a with | ⟨0, _⟩ => rfl | ⟨1, _⟩ => rfl
    have hr : ridx_main_v30 (ix2 r s) k = ix2 k s := funext fun a => by match a with | ⟨0, _⟩ => rfl | ⟨1, _⟩ => rfl
    rw [hl, hr]
  rw [Finset.sum_congr rfl fun k _ => key k]
  rfl

/-- Bias and rectifier of a node array `A` with a bias vector `b`, spelt with the float operations, at `(r, c)`:
    the specification's `hiddenRow` of row `r`. Stated over variables; the two stages below instantiate it. -/
theorem hidden_value (A : (⟨S50000x128, .f32⟩ : BufTy).Contents (Elt Ideal)) (b : (⟨S128, .f32⟩ : BufTy).Contents (Elt Ideal))
    (r : Fin 50000) (c : Fin 128) :
    FloatOps.maximumf (FloatOps.addf (A (ix2 r c)) (b (ix1 c))) (FloatOps.ofBits (F := Ideal) FTy.f32 0x00000000#32)
      = hiddenRow (rowOf (R := 50000) (n := 128) A r) (vecRow (n := 128) b) c := rfl

/-- Bias and rectifier before the second `dot_general`, at `(r, c)`. -/
theorem hidden1_apply (r : Fin 50000) (c : Fin 128) :
    val_main_v47 (F := Ideal) x0 x1 x2 x7 (ix2 r c)
      = hiddenRow (rowOf (R := 50000) (n := 128) (val_main_v43 (F := Ideal) x0 x1 x7) r) (vecRow (n := 128) x2) c := by
  rw [val_main_v47_apply, val_main_v46_apply, val_main_v45_apply, val_main_v44_apply, val_main_call1_v0_apply,
    val_main_call1_cst_apply]
  have hb : idx_main_v44 (idx_main_v45 (ix2 r c)) = ix1 c := funext fun a => by match a with | ⟨0, _⟩ => rfl
  rw [hb]
  generalize val_main_v43 (F := Ideal) x0 x1 x7 = A
  exact hidden_value A x2 r c

/-- The hidden layer: bias, rectifier and the second `dot_general`, row by row. -/
theorem layer_eq : val_main_v48 (F := Ideal) x0 x1 x2 x3 x7
    = layerRows (R := 50000) (n := 128) (k := 128) (val_main_v43 (F := Ideal) x0 x1 x7) (vecRow (n := 128) x2) x3 := by
  funext i
  obtain ⟨r, s, rfl⟩ : ∃ (r : Fin 50000) (s : Fin 128), i = ix2 r s := ⟨i 0, i 1, eq_ix2 i⟩
  rw [val_main_v48_apply]
  have key : ∀ k : Fin 128, val_main_v47 (F := Ideal) x0 x1 x2 x7 (lidx_main_v48 (ix2 r s) k) * x3 (ridx_main_v48 (ix2 r s) k)
      = hiddenRow (rowOf (R := 50000) (n := 128) (val_main_v43 (F := Ideal) x0 x1 x7) r) (vecRow (n := 128) x2) k
        * x3 (ix2 k s) := fun k => by
    have hl : lidx_main_v48 (ix2 r s) k = ix2 r k := funext fun a => by match a with | ⟨0, _⟩ => rfl | ⟨1, _⟩ => rfl
    have hr : ridx_main_v48 (ix2 r s) k = ix2 k s := funext fun a => by match a with | ⟨0, _⟩ => rfl | ⟨1, _⟩ => rfl
    rw [hl, hr, hidden1_apply]
  rw [Finset.sum_congr rfl fun k _ => key k]
  generalize val_main_v43 (F := Ideal) x0 x1 x7 = A
  rfl

/-- Bias and rectifier before the third `dot_general`, at `(r, c)`. -/
theorem hidden2_apply (r : Fin 50000) (c : Fin 128) :
    val_main_v65 (F := Ideal) x0 x1 x2 x3 x4 x7 (ix2 r c)
      = hiddenRow (rowOf (R := 50000) (n := 128) (val_main_v61 (F := Ideal) x0 x1 x2 x3 x7) r) (vecRow (n := 128) x4) c := by
  rw [val_main_v65_apply, val_main_v64_apply, val_main_v63_apply, val_main_v62_apply, val_main_call2_v0_apply,
    val_main_call2_cst_apply]
  have hb : idx_main_v62 (idx_main_v63 (ix2 r c)) = ix1 c := funext fun a => by match a with | ⟨0, _⟩ => rfl
  rw [hb]
  generalize val_main_v61 (F := Ideal) x0 x1 x2 x3 x7 = A
  exact hidden_value A x4 r c

/-- The head's logits at `(r, q)`. -/
theorem logits_apply (r : Fin 50000) (q : Fin 64) :
    val_main_v69 (F := Ideal) x0 x1 x2 x3 x4 x5 x6 x7 (ix2 r q)
      = logitsRow (rowOf (R := 50000) (n := 128) (val_main_v61 (F := Ideal) x0 x1 x2 x3 x7) r) (vecRow (n := 128) x4)
          (x5 : Mat 128 64) (vecRow (n := 64) x6) q := by
  rw [val_main_v69_apply, val_main_v66_apply, val_main_v68_apply, val_main_v67_apply]
  have hc : idx_main_v67 (idx_main_v68 (ix2 r q)) = ix1 q := funext fun a => by match a with | ⟨0, _⟩ => rfl
  rw [hc]
  have key : ∀ k : Fin 128, val_main_v65 (F := Ideal) x0 x1 x2 x3 x4 x7 (lidx_main_v66 (ix2 r q) k) * x5 (ridx_main_v66 (ix2 r q) k)
      = hiddenRow (rowOf (R := 50000) (n := 128) (val_main_v61 (F := Ideal) x0 x1 x2 x3 x7) r) (vecRow (n := 128) x4) k
        * x5 (ix2 k q) := fun k => by
    have hl : lidx_main_v66 (ix2 r q) k = ix2 r k := funext fun a => by match a with | ⟨0, _⟩ => rfl | ⟨1, _⟩ => rfl
    have hr : ridx_main_v66 (ix2 r q) k = ix2 k q := funext fun a => by match a with | ⟨0, _⟩ => rfl | ⟨1, _⟩ => rfl
    rw [hl, hr, hidden2_apply]
  rw [Finset.sum_congr rfl fun k _ => key k]
  generalize val_main_v61 (F := Ideal) x0 x1 x2 x3 x7 = A
  rfl

/-- The row maximum the reference's log-softmax takes out, at row `r`: the fold over the row's logits. -/
theorem rowmax_apply (r : Fin 50000) :
    val_main_call3_v2 (F := Ideal) x0 x1 x2 x3 x4 x5 x6 x7 (ix1 r)
      = rowMax (fun k : Fin 64 => val_main_v69 (F := Ideal) x0 x1 x2 x3 x4 x5 x6 x7 (ix2 r k)) := by
  rw [val_main_call3_v2_apply, val_main_call3_v1_apply, val_main_call3_cst_0_apply]
  unfold val_main_call3_v0
  generalize val_main_v69 (F := Ideal) x0 x1 x2 x3 x4 x5 x6 x7 = L
  rw [hostReduce_max_row (a := 50000) (b := 64) L _ reducesTo_S50000x64_S50000_d1 (by decide) h_S_ r]
  exact max_negInf_rowMax _

/-- The reference's shifted logits at `(r, q)`: the logit less the row's maximum. -/
theorem shifted_apply (r : Fin 50000) (q : Fin 64) :
    val_main_call3_v5 (F := Ideal) x0 x1 x2 x3 x4 x5 x6 x7 (ix2 r q)
      = val_main_v69 (F := Ideal) x0 x1 x2 x3 x4 x5 x6 x7 (ix2 r q)
        - rowMax (fun k : Fin 64 => val_main_v69 (F := Ideal) x0 x1 x2 x3 x4 x5 x6 x7 (ix2 r k)) := by
  rw [val_main_call3_v5_apply, val_main_call3_v4_apply, val_main_call3_v3_apply]
  have hm : idx_main_call3_v3 (idx_main_call3_v4 (ix2 r q)) = ix1 r := funext fun a => by match a with | ⟨0, _⟩ => rfl
  rw [hm, rowmax_apply]
  generalize val_main_v69 (F := Ideal) x0 x1 x2 x3 x4 x5 x6 x7 = L
  rfl

/-- The exponentials the reference sums along row `r`. -/
theorem exp_apply (r : Fin 50000) (k : Fin 64) :
    val_main_call3_v6 (F := Ideal) x0 x1 x2 x3 x4 x5 x6 x7 (idx_main_call3_v7 (ix1 r) k)
      = Ideal.exp (val_main_v69 (F := Ideal) x0 x1 x2 x3 x4 x5 x6 x7 (ix2 r k)
        - rowMax (fun j : Fin 64 => val_main_v69 (F := Ideal) x0 x1 x2 x3 x4 x5 x6 x7 (ix2 r j))) := by
  have hk : idx_main_call3_v7 (ix1 r) k = ix2 r k := funext fun a => by match a with | ⟨0, _⟩ => rfl | ⟨1, _⟩ => rfl
  rw [hk, val_main_call3_v6_apply, shifted_apply]
  generalize val_main_v69 (F := Ideal) x0 x1 x2 x3 x4 x5 x6 x7 = L
  rfl

/-- The reference's log-softmax of its logits, at `(r, q)`: that of row `r` of the logits. -/
theorem logSoftmax_apply (r : Fin 50000) (q : Fin 64) :
    val_main_v70 (F := Ideal) x0 x1 x2 x3 x4 x5 x6 x7 (ix2 r q)
      = logSoftmaxRow (fun k : Fin 64 => val_main_v69 (F := Ideal) x0 x1 x2 x3 x4 x5 x6 x7 (ix2 r k)) q := by
  rw [val_main_v70_apply, shifted_apply, val_main_call3_v10_apply, val_main_call3_v9_apply, val_main_call3_v8_apply]
  have hs : idx_main_call3_v8 (idx_main_call3_v10 (ix2 r q)) = ix1 r := funext fun a => by match a with | ⟨0, _⟩ => rfl
  rw [hs, val_main_call3_v7_apply, val_main_call3_cst_1_apply,
    Finset.sum_congr rfl fun k _ => exp_apply x0 x1 x2 x3 x4 x5 x6 x7 r k]
  generalize val_main_v69 (F := Ideal) x0 x1 x2 x3 x4 x5 x6 x7 = L
  simp only [Ideal.ofBits_def, Ideal.ofBits_zero_f32, zero_add]
  rfl

/-- The head: jax's log-softmax of the logits, row by row. -/
theorem head_eq : val_main_v70 (F := Ideal) x0 x1 x2 x3 x4 x5 x6 x7
    = headRows (R := 50000) (n := 128) (k := 64) (val_main_v61 (F := Ideal) x0 x1 x2 x3 x7) (vecRow (n := 128) x4)
        (x5 : Mat 128 64) (vecRow (n := 64) x6) := by
  funext i
  obtain ⟨r, q, rfl⟩ : ∃ (r : Fin 50000) (q : Fin 64), i = ix2 r q := ⟨i 0, i 1, eq_ix2 i⟩
  have hlog : (fun k : Fin 64 => val_main_v69 (F := Ideal) x0 x1 x2 x3 x4 x5 x6 x7 (ix2 r k))
      = logitsRow (rowOf (R := 50000) (n := 128) (val_main_v61 (F := Ideal) x0 x1 x2 x3 x7) r) (vecRow (n := 128) x4)
          (x5 : Mat 128 64) (vecRow (n := 64) x6) := funext fun k => logits_apply x0 x1 x2 x3 x4 x5 x6 x7 r k
  rw [logSoftmax_apply, hlog]
  generalize val_main_v61 (F := Ideal) x0 x1 x2 x3 x7 = A
  rfl

end Cert.ReferenceIdeal.Stages

end
-- ==== Proof.Bridge.lean ====
/-
  The kernel's program and the reference compute one function.

  Both programs run the SAME host operations around their dense stages: from the edge list, the edges' sources and
  targets with a self-loop per node appended, the nodes' degrees, and each edge's weight `deg(src)^(-1/2) · deg(dst)^(-1/2)`;
  and, between the stages, the aggregation over the edges. So the reference's source, target and weight stages are the
  kernel side's `srcOf`, `dstOf` and `weightOf`, and each of its two aggregations is `aggregate` of the same operands — by
  unfolding names only, one layer of the computation at a time: no gather, scatter or reciprocal square root is ever read. The dense stages agree row by row (the two modules before this
  one), and the two results are then one expression of the arguments.
-/
import proofs.«146125_j996432412810_1_alg».proof.Proof.KernelValue
import proofs.«146125_j996432412810_1_alg».proof.Proof.RefStages
import proofs.«146125_j996432412810_1_alg».proof.Proof.LibTypedRef

set_option maxRecDepth 16384

noncomputable section

namespace Cert.Bridge

open Idealize.ShloMosaic Idealize.ShloMosaic.TcCoe Idealize.SL.Sem Idealize.ShloMosaic.StableHlo
open Cert.Gcn Cert.KernelIdeal.Between

/-! ## The reference's aggregations are `aggregate` -/

section Ref

open Cert.ReferenceIdeal Cert.ReferenceIdeal.ReadP

variable (x0 : (⟨S50000x512, .f32⟩ : BufTy).Contents (Elt Ideal)) (x1 : (⟨S512x128, .f32⟩ : BufTy).Contents (Elt Ideal))
  (x2 : (⟨S128, .f32⟩ : BufTy).Contents (Elt Ideal)) (x3 : (⟨S128x128, .f32⟩ : BufTy).Contents (Elt Ideal))
  (x7 : (⟨S2x800000, .i32⟩ : BufTy).Contents (Elt Ideal))

/-- The reference's aggregation of its first product. -/
theorem ref_agg1 : val_main_v43 (F := Ideal) x0 x1 x7
    = aggregate (val_main_v30 (F := Ideal) x0 x1) (val_main_v3 (F := Ideal) x7) (val_main_v6 (F := Ideal) x7)
        (val_main_v29 (F := Ideal) x7) := by
  unfold val_main_v43 val_main_v42 val_main_v41 val_main_v40 val_main_v39 val_main_v38 val_main_v37 val_main_v36 val_main_v35
    val_main_v34 val_main_v33 val_main_v32 val_main_v31 val_main_c_6 val_main_c_7 val_main_cst_8 aggregate
  generalize val_main_v30 (F := Ideal) x0 x1 = h
  generalize val_main_v3 (F := Ideal) x7 = s
  generalize val_main_v6 (F := Ideal) x7 = d
  generalize val_main_v29 (F := Ideal) x7 = w
  rfl

/-- The reference's aggregation of its hidden layer. -/
theorem ref_agg2 : val_main_v61 (F := Ideal) x0 x1 x2 x3 x7
    = aggregate (val_main_v48 (F := Ideal) x0 x1 x2 x3 x7) (val_main_v3 (F := Ideal) x7) (val_main_v6 (F := Ideal) x7)
        (val_main_v29 (F := Ideal) x7) := by
  unfold val_main_v61 val_main_v60 val_main_v59 val_main_v58 val_main_v57 val_main_v56 val_main_v55 val_main_v54 val_main_v53
    val_main_v52 val_main_v51 val_main_v50 val_main_v49 val_main_c_9 val_main_c_10 val_main_cst_11 aggregate
  generalize val_main_v48 (F := Ideal) x0 x1 x2 x3 x7 = h
  generalize val_main_v3 (F := Ideal) x7 = s
  generalize val_main_v6 (F := Ideal) x7 = d
  generalize val_main_v29 (F := Ideal) x7 = w
  rfl

end Ref

/-! ## The reference's source, target and weight vectors are the kernel's -/

section RefEdges

open Cert.ReferenceIdeal Cert.ReferenceIdeal.ReadP

variable (x7 : (⟨S2x800000, .i32⟩ : BufTy).Contents (Elt Ideal))

/-- The reference's sources are `srcOf` of the edge list. -/
theorem ref_src : val_main_v3 (F := Ideal) x7 = srcOf (F := Ideal) x7 := by
  unfold val_main_v3 val_main_v2 val_main_v1 val_main_v0 srcOf
  rfl

/-- The reference's targets are `dstOf` of the edge list. -/
theorem ref_dst : val_main_v6 (F := Ideal) x7 = dstOf (F := Ideal) x7 := by
  unfold val_main_v6 val_main_v5 val_main_v4 val_main_v0 dstOf
  rfl

/-- The reference's degrees are `degOf` of its targets. -/
theorem ref_deg : val_main_v10 (F := Ideal) x7 = degOf (F := Ideal) (val_main_v6 (F := Ideal) x7) := by
  unfold val_main_v10 val_main_v9 val_main_v8 val_main_cst_0 val_main_v7 val_main_cst degOf
  generalize val_main_v6 (F := Ideal) x7 = d
  rfl

/-- The reference's `deg^(-1/2)`, with `0` at degree zero. -/
theorem ref_invSqrtDeg : val_main_v14 (F := Ideal) x7 = invSqrtDegOf (F := Ideal) (val_main_v6 (F := Ideal) x7) := by
  unfold val_main_v14 val_main_call0_v1 val_main_call0_v0 val_main_cst_2 val_main_v13 val_main_v12 val_main_v11 val_main_cst_1
    invSqrtDegOf
  rw [ref_deg]

/-- The reference's weights are `weightOf` of its sources and targets. -/
theorem ref_wgt : val_main_v29 (F := Ideal) x7
    = weightOf (F := Ideal) (val_main_v3 (F := Ideal) x7) (val_main_v6 (F := Ideal) x7) := by
  unfold val_main_v29 val_main_v28 val_main_v27 val_main_v26 val_main_v25 val_main_v24 val_main_v23 val_main_v22 val_main_c_5
    val_main_c_4 val_main_v21 val_main_v20 val_main_v19 val_main_v18 val_main_v17 val_main_v16 val_main_v15 val_main_c_3
    val_main_c weightOf gatherAt
  rw [ref_invSqrtDeg]
  all_goals
    generalize invSqrtDegOf (F := Ideal) (val_main_v6 (F := Ideal) x7) = g
    generalize val_main_v3 (F := Ideal) x7 = s
    generalize val_main_v6 (F := Ideal) x7 = d
    rfl

end RefEdges

/-! ## The two results -/

section Results

open Cert.KernelIdeal Cert.KernelIdeal.Gen

variable (m : (ℓ : Loc nD τ sig) → Buf (Elt Ideal) ℓ)

/-- THE TWO RESULTS ARE ONE EXPRESSION: what the kernel's program returns is the reference's last stage of the same
    arguments. -/
theorem result_eq (c : Dev nD) : Cert.KernelIdeal.Whole.result m c
    = Cert.ReferenceIdeal.ReadP.val_main_v70 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  rw [Cert.ReferenceIdeal.Stages.head_eq, ref_agg2, Cert.ReferenceIdeal.Stages.layer_eq, ref_agg1,
    Cert.ReferenceIdeal.Stages.product_eq, ref_wgt, ref_src, ref_dst]
  rfl

end Results

end Cert.Bridge

end
-- ==== Proof.RefRun.lean ====
/-
  The reference's run, read in six stages.

  The reference is a straight line of 105 host operations, so every weakly fair execution terminates with each buffer at
  the fold of the operations over the launch contents. Read all at once that fold is one very deep term; read in stages
  it is six short ones. The line is cut where the next stage needs only a few buffers:
  * stage A (40 operations) makes, from the edge list, the edges' sources, targets and weights;
  * stage B (17) the first product and its aggregation over the edges;
  * stage C (7) the hidden layer of that;
  * stage D (16) the aggregation of the hidden layer;
  * stage E (10) the head's logits, and stage F (15) their log-softmax.
  The contents after each stage are kept behind a name (`RA` … `RE`), and at each cut the one new array is identified with
  the reference's stage function of the ARGUMENTS (`val_main_v43`, `val_main_v48`, `val_main_v61`, `val_main_v69`,
  `val_main_v70`), the
  arrays before it entering as names. The buffers a later stage still reads — arguments, sources, targets, weights — are
  written by no operation in between.
-/
import proofs.«146125_j996432412810_1_alg».proof.Proof.RefRunPatched
import proofs.«146125_j996432412810_1_alg».proof.Proof.RefReadPatched
import proofs.«146125_j996432412810_1_alg».proof.Proof.LibTypedRef
import Idealize.ShloMosaic.Lib.StableHlo.Run

set_option maxRecDepth 16384

noncomputable section

namespace Cert.ReferenceIdeal.HandRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Two lines of operations run one after the other fold as their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The six stages of the line -/

def opsA : List (HloOp τ sig (Elt F)) := (ops (F := F)).take 40
def opsB : List (HloOp τ sig (Elt F)) := ((ops (F := F)).drop 40).take 17
def opsC : List (HloOp τ sig (Elt F)) := (((ops (F := F)).drop 40).drop 17).take 7
def opsD : List (HloOp τ sig (Elt F)) := ((((ops (F := F)).drop 40).drop 17).drop 7).take 16
def opsE : List (HloOp τ sig (Elt F)) := (((((ops (F := F)).drop 40).drop 17).drop 7).drop 16).take 10
def opsF : List (HloOp τ sig (Elt F)) := (((((ops (F := F)).drop 40).drop 17).drop 7).drop 16).drop 10

theorem ops_split : (ops (F := F)) = opsA ++ (opsB ++ (opsC ++ (opsD ++ (opsE ++ opsF)))) := by
  unfold opsA opsB opsC opsD opsE opsF
  simp only [List.take_append_drop]

variable (m : (ℓ : Loc nD τ sig) → Buf (Elt F) ℓ)

/-- The buffer contents after each of the first five stages. -/
def RA (c : Dev nD) : Valuation τ sig (Elt F) := after opsA (launchContents m c)
def RB (c : Dev nD) : Valuation τ sig (Elt F) := after opsB (RA m c)
def RC (c : Dev nD) : Valuation τ sig (Elt F) := after opsC (RB m c)
def RD (c : Dev nD) : Valuation τ sig (Elt F) := after opsD (RC m c)
def RE (c : Dev nD) : Valuation τ sig (Elt F) := after opsE (RD m c)

/-- The whole line's fold is the last stage's over the fifth stage's contents. -/
theorem after_ops (c : Dev nD) : after (ops (F := F)) (launchContents m c) = after opsF (RE m c) :=
  (congrArg (fun l => after l (launchContents m c)) (ops_split (F := F))).trans (by
    simp only [after_append]; rfl)

/-! ## Stage A: the edges' sources, targets and weights -/

set_option maxHeartbeats 8000000 in
theorem stageA_src (c : Dev nD) : RA m c (Proc.devRef .tc main_v3) = val_main_v3 (F := F) (m ((c : Thread nD τ).loc main_arg7)) := by
  show after opsA (launchContents m c) _ = _
  simp only [opsA, ops, List.take_succ_cons, List.take_zero]
  after_results_simp
  unfold val_main_v3 val_main_v2 val_main_v1 val_main_v0
  rfl

set_option maxHeartbeats 8000000 in
theorem stageA_dst (c : Dev nD) : RA m c (Proc.devRef .tc main_v6) = val_main_v6 (F := F) (m ((c : Thread nD τ).loc main_arg7)) := by
  show after opsA (launchContents m c) _ = _
  simp only [opsA, ops, List.take_succ_cons, List.take_zero]
  after_results_simp
  unfold val_main_v6 val_main_v5 val_main_v4 val_main_v0
  rfl

set_option maxHeartbeats 16000000 in
theorem stageA_wgt (c : Dev nD) : RA m c (Proc.devRef .tc main_v29) = val_main_v29 (F := F) (m ((c : Thread nD τ).loc main_arg7)) := by
  show after opsA (launchContents m c) _ = _
  simp only [opsA, ops, List.take_succ_cons, List.take_zero]
  after_results_simp
  unfold val_main_v29 val_main_v28 val_main_v27 val_main_v26 val_main_v25 val_main_v24 val_main_v23 val_main_v22 val_main_c_5
    val_main_c_4 val_main_v21 val_main_v20 val_main_v19 val_main_v18 val_main_v17 val_main_v16 val_main_v15 val_main_c_3
    val_main_c val_main_v14 val_main_call0_v1 val_main_call0_v0 val_main_cst_2 val_main_v13 val_main_v12 val_main_v11
    val_main_cst_1 val_main_v10 val_main_v9 val_main_v8 val_main_cst_0 val_main_v7 val_main_cst val_main_v6 val_main_v5
    val_main_v4 val_main_v3 val_main_v2 val_main_v1 val_main_v0
  rfl

set_option maxHeartbeats 8000000 in
/-- Stage A writes no argument. -/
theorem stageA_args (c : Dev nD) :
    RA m c (Proc.devRef .tc main_arg0) = m ((c : Thread nD τ).loc main_arg0)
    ∧ RA m c (Proc.devRef .tc main_arg1) = m ((c : Thread nD τ).loc main_arg1)
    ∧ RA m c (Proc.devRef .tc main_arg2) = m ((c : Thread nD τ).loc main_arg2)
    ∧ RA m c (Proc.devRef .tc main_arg3) = m ((c : Thread nD τ).loc main_arg3)
    ∧ RA m c (Proc.devRef .tc main_arg4) = m ((c : Thread nD τ).loc main_arg4)
    ∧ RA m c (Proc.devRef .tc main_arg5) = m ((c : Thread nD τ).loc main_arg5)
    ∧ RA m c (Proc.devRef .tc main_arg6) = m ((c : Thread nD τ).loc main_arg6) := by
  refine ⟨?_, ?_, ?_, ?_, ?_, ?_, ?_⟩ <;>
  · show after opsA (launchContents m c) _ = _
    simp only [opsA, ops, List.take_succ_cons, List.take_zero]
    after_results_simp
    try rfl

/-! ## Stage B: the first product and its aggregation -/

set_option maxHeartbeats 8000000 in
/-- Stage B writes none of the buffers later stages read. -/
theorem stageB_keep (c : Dev nD) :
    RB m c (Proc.devRef .tc main_arg2) = RA m c (Proc.devRef .tc main_arg2)
    ∧ RB m c (Proc.devRef .tc main_arg3) = RA m c (Proc.devRef .tc main_arg3)
    ∧ RB m c (Proc.devRef .tc main_arg4) = RA m c (Proc.devRef .tc main_arg4)
    ∧ RB m c (Proc.devRef .tc main_arg5) = RA m c (Proc.devRef .tc main_arg5)
    ∧ RB m c (Proc.devRef .tc main_arg6) = RA m c (Proc.devRef .tc main_arg6)
    ∧ RB m c (Proc.devRef .tc main_v3) = RA m c (Proc.devRef .tc main_v3)
    ∧ RB m c (Proc.devRef .tc main_v6) = RA m c (Proc.devRef .tc main_v6)
    ∧ RB m c (Proc.devRef .tc main_v29) = RA m c (Proc.devRef .tc main_v29) := by
  refine ⟨?_, ?_, ?_, ?_, ?_, ?_, ?_, ?_⟩ <;>
  · show after opsB (RA m c) _ = _
    simp only [opsB, ops, List.drop_succ_cons, List.drop_zero, List.take_succ_cons, List.take_zero]
    after_results_simp

set_option maxHeartbeats 8000000 in
/-- After stage B the aggregated first product is the reference's stage of the arguments. -/
theorem stageB (c : Dev nD) : RB m c (Proc.devRef .tc main_v43)
    = val_main_v43 (F := F) (m ((c : Thread nD τ).loc main_arg0)) (m ((c : Thread nD τ).loc main_arg1))
        (m ((c : Thread nD τ).loc main_arg7)) := by
  show after opsB (RA m c) _ = _
  simp only [opsB, ops, List.drop_succ_cons, List.drop_zero, List.take_succ_cons, List.take_zero]
  after_results_simp
  rw [(stageA_args m c).1, (stageA_args m c).2.1, stageA_src, stageA_dst, stageA_wgt]
  unfold val_main_v43 val_main_v42 val_main_v41 val_main_v40 val_main_v39 val_main_v38 val_main_v37 val_main_v36 val_main_v35
    val_main_v34 val_main_v33 val_main_v32 val_main_v31 val_main_c_6 val_main_c_7 val_main_cst_8 val_main_v30
  generalize val_main_v3 (F := F) (m ((c : Thread nD τ).loc main_arg7)) = s
  generalize val_main_v6 (F := F) (m ((c : Thread nD τ).loc main_arg7)) = d
  generalize val_main_v29 (F := F) (m ((c : Thread nD τ).loc main_arg7)) = w
  rfl

/-! ## Stage C: the hidden layer -/

set_option maxHeartbeats 8000000 in
/-- Stage C writes none of the buffers later stages read. -/
theorem stageC_keep (c : Dev nD) :
    RC m c (Proc.devRef .tc main_arg4) = RB m c (Proc.devRef .tc main_arg4)
    ∧ RC m c (Proc.devRef .tc main_arg5) = RB m c (Proc.devRef .tc main_arg5)
    ∧ RC m c (Proc.devRef .tc main_arg6) = RB m c (Proc.devRef .tc main_arg6)
    ∧ RC m c (Proc.devRef .tc main_v3) = RB m c (Proc.devRef .tc main_v3)
    ∧ RC m c (Proc.devRef .tc main_v6) = RB m c (Proc.devRef .tc main_v6)
    ∧ RC m c (Proc.devRef .tc main_v29) = RB m c (Proc.devRef .tc main_v29) := by
  refine ⟨?_, ?_, ?_, ?_, ?_, ?_⟩ <;>
  · show after opsC (RB m c) _ = _
    simp only [opsC, ops, List.drop_succ_cons, List.drop_zero, List.take_succ_cons, List.take_zero]
    after_results_simp

set_option maxHeartbeats 8000000 in
/-- After stage C the hidden layer is the reference's stage of the arguments. -/
theorem stageC (c : Dev nD) : RC m c (Proc.devRef .tc main_v48)
    = val_main_v48 (F := F) (m ((c : Thread nD τ).loc main_arg0)) (m ((c : Thread nD τ).loc main_arg1))
        (m ((c : Thread nD τ).loc main_arg2)) (m ((c : Thread nD τ).loc main_arg3)) (m ((c : Thread nD τ).loc main_arg7)) := by
  show after opsC (RB m c) _ = _
  simp only [opsC, ops, List.drop_succ_cons, List.drop_zero, List.take_succ_cons, List.take_zero]
  after_results_simp
  rw [stageB, (stageB_keep m c).1, (stageB_keep m c).2.1, (stageA_args m c).2.2.1, (stageA_args m c).2.2.2.1]
  unfold val_main_v48 val_main_v47 val_main_v46 val_main_v45 val_main_v44 val_main_call1_v0 val_main_call1_cst
  generalize val_main_v43 (F := F) (m ((c : Thread nD τ).loc main_arg0)) (m ((c : Thread nD τ).loc main_arg1))
    (m ((c : Thread nD τ).loc main_arg7)) = a
  rfl

/-! ## Stage D: the aggregation of the hidden layer -/

set_option maxHeartbeats 8000000 in
/-- Stage D writes none of the buffers the head reads. -/
theorem stageD_keep (c : Dev nD) :
    RD m c (Proc.devRef .tc main_arg4) = RC m c (Proc.devRef .tc main_arg4)
    ∧ RD m c (Proc.devRef .tc main_arg5) = RC m c (Proc.devRef .tc main_arg5)
    ∧ RD m c (Proc.devRef .tc main_arg6) = RC m c (Proc.devRef .tc main_arg6) := by
  refine ⟨?_, ?_, ?_⟩ <;>
  · show after opsD (RC m c) _ = _
    simp only [opsD, ops, List.drop_succ_cons, List.drop_zero, List.take_succ_cons, List.take_zero]
    after_results_simp

set_option maxHeartbeats 8000000 in
/-- After stage D the aggregated hidden layer is the reference's stage of the arguments. -/
theorem stageD (c : Dev nD) : RD m c (Proc.devRef .tc main_v61)
    = val_main_v61 (F := F) (m ((c : Thread nD τ).loc main_arg0)) (m ((c : Thread nD τ).loc main_arg1))
        (m ((c : Thread nD τ).loc main_arg2)) (m ((c : Thread nD τ).loc main_arg3)) (m ((c : Thread nD τ).loc main_arg7)) := by
  show after opsD (RC m c) _ = _
  simp only [opsD, ops, List.drop_succ_cons, List.drop_zero, List.take_succ_cons, List.take_zero]
  after_results_simp
  rw [stageC, (stageC_keep m c).2.2.2.1, (stageC_keep m c).2.2.2.2.1, (stageC_keep m c).2.2.2.2.2,
    (stageB_keep m c).2.2.2.2.2.1, (stageB_keep m c).2.2.2.2.2.2.1, (stageB_keep m c).2.2.2.2.2.2.2,
    stageA_src, stageA_dst, stageA_wgt]
  unfold val_main_v61 val_main_v60 val_main_v59 val_main_v58 val_main_v57 val_main_v56 val_main_v55 val_main_v54 val_main_v53
    val_main_v52 val_main_v51 val_main_v50 val_main_v49 val_main_c_9 val_main_c_10 val_main_cst_11
  generalize val_main_v48 (F := F) (m ((c : Thread nD τ).loc main_arg0)) (m ((c : Thread nD τ).loc main_arg1))
    (m ((c : Thread nD τ).loc main_arg2)) (m ((c : Thread nD τ).loc main_arg3)) (m ((c : Thread nD τ).loc main_arg7)) = h
  generalize val_main_v3 (F := F) (m ((c : Thread nD τ).loc main_arg7)) = s
  generalize val_main_v6 (F := F) (m ((c : Thread nD τ).loc main_arg7)) = d
  generalize val_main_v29 (F := F) (m ((c : Thread nD τ).loc main_arg7)) = w
  rfl

/-! ## Stage E: the head's logits -/

set_option maxHeartbeats 16000000 in
/-- After stage E the logits are the reference's stage of the arguments. -/
theorem stageE (c : Dev nD) : RE m c (Proc.devRef .tc main_v69)
    = val_main_v69 (F := F) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  show after opsE (RD m c) _ = _
  simp only [opsE, ops, List.drop_succ_cons, List.drop_zero, List.take_succ_cons, List.take_zero]
  after_results_simp
  rw [stageD, (stageD_keep m c).1, (stageD_keep m c).2.1, (stageD_keep m c).2.2,
    (stageC_keep m c).1, (stageC_keep m c).2.1, (stageC_keep m c).2.2.1,
    (stageB_keep m c).2.2.1, (stageB_keep m c).2.2.2.1, (stageB_keep m c).2.2.2.2.1,
    (stageA_args m c).2.2.2.2.1, (stageA_args m c).2.2.2.2.2.1, (stageA_args m c).2.2.2.2.2.2]
  unfold val_main_v69 val_main_v68 val_main_v67 val_main_v66 val_main_v65 val_main_call2_v0 val_main_call2_cst val_main_v64
    val_main_v63 val_main_v62
  generalize val_main_v61 (F := F) (m ((c : Thread nD τ).loc main_arg0)) (m ((c : Thread nD τ).loc main_arg1))
    (m ((c : Thread nD τ).loc main_arg2)) (m ((c : Thread nD τ).loc main_arg3)) (m ((c : Thread nD τ).loc main_arg7)) = a
  rfl

/-! ## Stage F: the log-softmax -/

set_option maxHeartbeats 16000000 in
/-- After the last stage the result is the reference's last stage of the arguments. -/
theorem stageF (c : Dev nD) : after opsF (RE m c) (Proc.devRef .tc main_v70)
    = val_main_v70 (F := F) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  simp only [opsF, ops, List.drop_succ_cons, List.drop_zero]
  after_results_simp
  simp only [Cert.TypedRef.ofBuf_toBuf]
  rw [stageE]
  unfold val_main_v70 val_main_call3_v10 val_main_call3_v9 val_main_call3_v8 val_main_call3_v7 val_main_call3_cst_1
    val_main_call3_v6 val_main_call3_v5 val_main_call3_v4 val_main_call3_v3 val_main_call3_v2 val_main_call3_v1
    val_main_call3_cst_0 val_main_call3_v0 val_main_call3_cst
  generalize val_main_v69 (F := F) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) = l
  rfl

/-! ## The run -/

variable (ρ : Dev nD → PrngReg)

set_option maxRecDepth 16384 in
set_option maxHeartbeats 42000000 in
/-- On every device, from any memory with zero counters: every weakly fair execution of the reference terminates with its
    result at the last stage of the arguments and the arguments unchanged. -/
theorem run : θ_run defs (onTc (τ := τ) (main (F := F))) ⟨m, fun _ => 0, ρ⟩ fun r => ∀ c : Dev nD,
      r.2.mem ((c.tc : Thread nD τ).loc main_v70)
        = val_main_v70 (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v70).trans ((congrFun (after_ops m c) _).trans (stageF m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.HandRun

end
-- ==== Proof.lean ====
/-
  The certificate of a two-layer graph convolution kernel against its jnp reference.

  The kernel's program runs three Pallas regions — `X · W₁`; bias, rectifier and `· W₂`; bias, rectifier, `· W₃`, class
  bias and a log-softmax along each row — each over ten blocks of 5000 nodes, with the graph's edge aggregation done on the
  host between them. The reference does the same three dense stages as whole-array operations, with the same host
  operations for the edges. On the extended reals the two return one function of the arguments:
  * each region's result array is its stage's row function applied to every row of the array the region was given
    (the regions' blocks tile their arrays; rounding a product's operands to bf16 is the identity; a product accumulated
    into zero is the plain sum);
  * each reference stage is the same row function of every row (`dot_general` as the sum over the shared axis, the host's
    row maximum and row sum as the fold and the sum over the row, one more maximum with `-∞` changing nothing);
  * the host operations on the edges are the same in both programs and are carried as names.
  No step uses distributivity or cancels anything, so the precondition (finite inputs) is never opened.
  The kernel's two frames are the generated frame certificates; the reference's frame is its run, read in stages, with
  the result dropped; the kernel's idealization rewrote nothing, so `preserves` is `True`.
-/
import proofs.«146125_j996432412810_1_alg».proof.Defs
import proofs.«146125_j996432412810_1_alg».proof.Proof.Gen.Kernel
import proofs.«146125_j996432412810_1_alg».proof.Proof.Gen.Kernel.Skeleton
import proofs.«146125_j996432412810_1_alg».proof.Proof.Gen.Kernel.Launch
import proofs.«146125_j996432412810_1_alg».proof.Proof.Gen.Kernel.Points
import proofs.«146125_j996432412810_1_alg».proof.Proof.Gen.Kernel.Frame
import proofs.«146125_j996432412810_1_alg».proof.Proof.Gen.KernelIdeal
import proofs.«146125_j996432412810_1_alg».proof.Proof.Gen.KernelIdeal.Skeleton
import proofs.«146125_j996432412810_1_alg».proof.Proof.Gen.KernelIdeal.Launch
import proofs.«146125_j996432412810_1_alg».proof.Proof.Gen.KernelIdeal.Points
import proofs.«146125_j996432412810_1_alg».proof.Proof.Gen.KernelIdeal.Frame
import proofs.«146125_j996432412810_1_alg».proof.Proof.Gen.ReferenceIdeal
import proofs.«146125_j996432412810_1_alg».proof.Proof.Gen.Pre_finite_inputs
import proofs.«146125_j996432412810_1_alg».proof.Proof.Bridge
import proofs.«146125_j996432412810_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- The idealization rewrote no operation. -/
theorem preserves : Cert.preserves_Kernel_KernelIdeal := trivial

/-- From memories agreeing on the arguments both programs end, the kernel's result buffer at `Whole.result` and the
    reference's at its last stage of the same arguments: one expression (`Bridge.result_eq`). -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.Bridge.result_eq m c).symm

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
